-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x768 : Shape := ⟨2, ![2, 768]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S2x768 32) (main_arg1 : IVec S2x768 32) (main_arg2 : IVec S2x768 32) (main_arg3 : IVec S2x768 32) (main_arg4 : IVec S2x768 32) (main_arg5 : IVec S2x768 32) (main_arg6 : FVec F S139x128 .f32) : IVec S_ 1 :=
  let main_v0 : FVec F S139x128 .f32 := Host.absf main_arg6
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S2x768 : Shape := ⟨2, ![2, 768]⟩
abbrev S139x128 : Shape := ⟨2, ![139, 128]⟩
abbrev S2x768x1 : Shape := ⟨3, ![2, 768, 1]⟩
abbrev S2x1x768 : Shape := ⟨3, ![2, 1, 768]⟩
abbrev S2x768x768x128 : Shape := ⟨4, ![2, 768, 768, 128]⟩
abbrev S1x96x1 : Shape := ⟨3, ![1, 96, 1]⟩
abbrev S1x1x128 : Shape := ⟨3, ![1, 1, 128]⟩
abbrev S1x96x128x128 : Shape := ⟨4, ![1, 96, 128, 128]⟩
abbrev S96x1 : Shape := ⟨2, ![96, 1]⟩
abbrev S1x128 : Shape := ⟨2, ![1, 128]⟩
abbrev S96x128 : Shape := ⟨2, ![96, 128]⟩
abbrev S96x128x139 : Shape := ⟨3, ![96, 128, 139]⟩
abbrev S96x128x1 : Shape := ⟨3, ![96, 128, 1]⟩
abbrev S12288x139 : Shape := ⟨2, ![12288, 139]⟩
abbrev S12288x128 : Shape := ⟨2, ![12288, 128]⟩
abbrev S96x128x128 : Shape := ⟨3, ![96, 128, 128]⟩

abbrev nBuf : Space → Nat
  | .hbm => 20
  | .vmem => 25
  | .smem => 0
  | _ => 0

abbrev bufTy : (tb : Table) → Fin (tcTables nBuf tb) → BufTy
  | .hbm, ⟨0, _⟩ => ⟨S2x768, .i32⟩
  | .hbm, ⟨1, _⟩ => ⟨S2x768, .i32⟩
  | .hbm, ⟨2, _⟩ => ⟨S2x768, .i32⟩
  | .hbm, ⟨3, _⟩ => ⟨S2x768, .i32⟩
  | .hbm, ⟨4, _⟩ => ⟨S2x768, .i32⟩
  | .hbm, ⟨5, _⟩ => ⟨S2x768, .i32⟩
  | .hbm, ⟨6, _⟩ => ⟨S139x128, .f32⟩
  | .hbm, ⟨7, _⟩ => ⟨S2x768x1, .i32⟩
  | .hbm, ⟨8, _⟩ => ⟨S2x1x768, .i32⟩
  | .hbm, ⟨9, _⟩ => ⟨S2x768x1, .i32⟩
  | .hbm, ⟨10, _⟩ => ⟨S2x1x768, .i32⟩
  | .hbm, ⟨11, _⟩ => ⟨S2x768x1, .i32⟩
  | .hbm, ⟨12, _⟩ => ⟨S2x1x768, .i32⟩
  | .hbm, ⟨13, _⟩ => ⟨S2x768x1, .i32⟩
  | .hbm, ⟨14, _⟩ => ⟨S2x1x768, .i32⟩
  | .hbm, ⟨15, _⟩ => ⟨S2x768x1, .i32⟩
  | .hbm, ⟨16, _⟩ => ⟨S2x1x768, .i32⟩
  | .hbm, ⟨17, _⟩ => ⟨S2x768x1, .i32⟩
  | .hbm, ⟨18, _⟩ => ⟨S2x1x768, .i32⟩
  | .hbm, ⟨19, _⟩ => ⟨S2x768x768x128, .f32⟩
  | .local _ .vmem, ⟨0, _⟩ => ⟨S1x96x1, .i32⟩
  | .local _ .vmem, ⟨1, _⟩ => ⟨S1x96x1, .i32⟩
  | .local _ .vmem, ⟨2, _⟩ => ⟨S1x1x128, .i32⟩
  | .local _ .vmem, ⟨3, _⟩ => ⟨S1x1x128, .i32⟩
  | .local _ .vmem, ⟨4, _⟩ => ⟨S1x96x1, .i32⟩
  | .local _ .vmem, ⟨5, _⟩ => ⟨S1x96x1, .i32⟩
  | .local _ .vmem, ⟨6, _⟩ => ⟨S1x1x128, .i32⟩
  | .local _ .vmem, ⟨7, _⟩ => ⟨S1x1x128, .i32⟩
  | .local _ .vmem, ⟨8, _⟩ => ⟨S1x96x1, .i32⟩
  | .local _ .vmem, ⟨9, _⟩ => ⟨S1x96x1, .i32⟩
  | .local _ .vmem, ⟨10, _⟩ => ⟨S1x1x128, .i32⟩
  | .local _ .vmem, ⟨11, _⟩ => ⟨S1x1x128, .i32⟩
  | .local _ .vmem, ⟨12, _⟩ => ⟨S1x96x1, .i32⟩
  | .local _ .vmem, ⟨13, _⟩ => ⟨S1x96x1, .i32⟩
  | .local _ .vmem, ⟨14, _⟩ => ⟨S1x1x128, .i32⟩
  | .local _ .vmem, ⟨15, _⟩ => ⟨S1x1x128, .i32⟩
  | .local _ .vmem, ⟨16, _⟩ => ⟨S1x96x1, .i32⟩
  | .local _ .vmem, ⟨17, _⟩ => ⟨S1x96x1, .i32⟩
  | .local _ .vmem, ⟨18, _⟩ => ⟨S1x1x128, .i32⟩
  | .local _ .vmem, ⟨19, _⟩ => ⟨S1x1x128, .i32⟩
  | .local _ .vmem, ⟨20, _⟩ => ⟨S1x1x128, .i32⟩
  | .local _ .vmem, ⟨21, _⟩ => ⟨S1x1x128, .i32⟩
  | .local _ .vmem, ⟨22, _⟩ => ⟨S139x128, .f32⟩
  | .local _ .vmem, ⟨23, _⟩ => ⟨S1x96x128x128, .f32⟩
  | .local _ .vmem, ⟨24, _⟩ => ⟨S1x96x128x128, .f32⟩
  | _, _ => ⟨S2x768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![2, 8, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x96x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x96x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x96x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x96x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x96x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x1x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 1 → Memref sig .tc .vmem S139x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x96x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

class Facts₀ : Prop where
  bcast_S2x768_S2x768x1_0_1 : S2x768.BroadcastsInDim S2x768x1 (![0, 1] : Fin 2 → Fin S2x768x1.rank)
  bcast_S2x768_S2x1x768_0_2 : S2x768.BroadcastsInDim S2x1x768 (![0, 2] : Fin 2 → Fin S2x1x768.rank)
  inb_S1x96x1_S1x96x1_0_0_0 : ∀ a, (![0, 0, 0] : Fin 3 → Nat) a + S1x96x1.size a ≤ S1x96x1.size a
  h_S1x96x1 : 0 < S1x96x1.numel
  shapeCasts_S1x96x1_S96x1 : S1x96x1.ShapeCasts S96x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S96x1_S96x128 : S96x1.Broadcasts S96x128
  broadcasts_S1x128_S96x128 : S1x128.Broadcasts S96x128
  iota_S96x128x139_d2_w32 : S96x128x139.Iotas .tc 32 [2]
  shapeCasts_S96x128_S96x128x1 : S96x128.ShapeCasts S96x128x1
  shapeCasts_S96x128x1_S96x128x1 : S96x128x1.ShapeCasts S96x128x1
  broadcasts_S96x128x1_S96x128x139 : S96x128x1.Broadcasts S96x128x139
  natLt_1_32 : 1 < 32
  bitsLt_bf16_f32 : FTy.bits .bf16 < FTy.bits .f32
  shapeCasts_S96x128x139_S12288x139 : S96x128x139.ShapeCasts S12288x139
  inb_S139x128_S139x128_0_0 : ∀ a, (![0, 0] : Fin 2 → Nat) a + S139x128.size a ≤ S139x128.size a
  h_S139x128 : 0 < S139x128.numel
  shapeCasts_S12288x128_S96x128x128 : S12288x128.ShapeCasts S96x128x128
  inb_S1x96x128x128_S1x96x128x128_0_0_0_0 : ∀ a, (![0, 0, 0, 0] : Fin 4 → Nat) a + S1x96x128x128.size a ≤ S1x96x128x128.size a
  h_S1x96x128x128 : 0 < S1x96x128x128.numel
  shapeCasts_S1x96x128x128_S96x128x128 : S1x96x128x128.ShapeCasts S96x128x128
  shapeCasts_S96x128x128_S1x96x128x128 : S96x128x128.ShapeCasts S1x96x128x128
  dot_S12288x139_S139x128_S12288x128_1_0_0_1_n_n_wf : DotDims.WF S12288x139 S139x128 S12288x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x1.size a ≤ S2x768x1.size a
  hwx0_0 : ∀ i : grid0.Coords, EltTy.bits .i32 = 32 ∨ (Rect.block (s := S2x768x1) S1x96x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x768.size a
  hwx0_1 : ∀ i : grid0.Coords, EltTy.bits .i32 = 32 ∨ (Rect.block (s := S2x1x768) S1x1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x1.size a ≤ S2x768x1.size a
  hwx0_2 : ∀ i : grid0.Coords, EltTy.bits .i32 = 32 ∨ (Rect.block (s := S2x768x1) S1x96x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x768.size a
  hwx0_3 : ∀ i : grid0.Coords, EltTy.bits .i32 = 32 ∨ (Rect.block (s := S2x1x768) S1x1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x96x1.size a ≤ S2x768x1.size a
  hwx0_4 : ∀ i : grid0.Coords, EltTy.bits .i32 = 32 ∨ (Rect.block (s := S2x768x1) S1x96x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x768.size a
  hwx0_5 : ∀ i : grid0.Coords, EltTy.bits .i32 = 32 ∨ (Rect.block (s := S2x1x768) S1x1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x96x1.size a ≤ S2x768x1.size a
  hwx0_6 : ∀ i : grid0.Coords, EltTy.bits .i32 = 32 ∨ (Rect.block (s := S2x768x1) S1x96x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x768.size a
  hwx0_7 : ∀ i : grid0.Coords, EltTy.bits .i32 = 32 ∨ (Rect.block (s := S2x1x768) S1x1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x96x1.size a ≤ S2x768x1.size a
  hwx0_8 : ∀ i : grid0.Coords, EltTy.bits .i32 = 32 ∨ (Rect.block (s := S2x768x1) S1x96x1.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S2x1x768.size a
  hwx0_9 : ∀ i : grid0.Coords, EltTy.bits .i32 = 32 ∨ (Rect.block (s := S2x1x768) S1x1x128.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S2x1x768.size a
  hwx0_10 : ∀ i : grid0.Coords, EltTy.bits .i32 = 32 ∨ (Rect.block (s := S2x1x768) S1x1x128.size (cc0_transform_10 i) (hinb0_10 i)).WholeWords (EltTy.packing .i32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S139x128.size a ≤ S139x128.size a
  hwx0_11 : ∀ i : grid0.Coords, EltTy.bits .f32 = 32 ∨ (Rect.block (s := S139x128) S139x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x96x128x128.size a ≤ S2x768x768x128.size a
  hwx0_12 : ∀ i : grid0.Coords, EltTy.bits .f32 = 32 ∨ (Rect.block (s := S2x768x768x128) S1x96x128x128.size (cc0_transform_12 i) (hinb0_12 i)).WholeWords (EltTy.packing .f32)

variable [Facts₀]

def dot_S12288x139_S139x128_S12288x128_1_0_0_1_n_n : DotDims S12288x139 S139x128 S12288x128 where
  lhsContracting := [1]
  rhsContracting := [0]
  lhsNonContracting := [0]
  rhsNonContracting := [1]
  lhsBatch := []
  rhsBatch := []
  wf := dot_S12288x139_S139x128_S12288x128_1_0_0_1_n_n_wf

abbrev win0_0 : Pipeline.Window sig grid0 :=
  Pipeline.Window.ofSpec (Memref.whole main_v0) S1x96x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x96x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x96x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x96x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x96x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S139x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x96x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2x768 : Shape := ⟨2, ![2, 768]⟩
abbrev S139x128 : Shape := ⟨2, ![139, 128]⟩
abbrev S2x768x1 : Shape := ⟨3, ![2, 768, 1]⟩
abbrev S2x1x768 : Shape := ⟨3, ![2, 1, 768]⟩
abbrev S2x768x768 : Shape := ⟨3, ![2, 768, 768]⟩
abbrev S_ : Shape := ⟨0, ![]⟩
abbrev S2x768x768x1 : Shape := ⟨4, ![2, 768, 768, 1]⟩
abbrev S1x1x1x66 : Shape := ⟨4, ![1, 1, 1, 66]⟩
abbrev S2x768x768x66 : Shape := ⟨4, ![2, 768, 768, 66]⟩
abbrev S1x1x1x6 : Shape := ⟨4, ![1, 1, 1, 6]⟩
abbrev S2x768x768x6 : Shape := ⟨4, ![2, 768, 768, 6]⟩
abbrev S2x768x768x139 : Shape := ⟨4, ![2, 768, 768, 139]⟩
abbrev S2x768x768x128 : Shape := ⟨4, ![2, 768, 768, 128]⟩

abbrev nBuf : Space → Nat
  | .hbm => 122
  | .vmem => 0
  | .smem => 0
  | _ => 0

abbrev bufTy : (tb : Table) → Fin (tcTables nBuf tb) → BufTy
  | .hbm, ⟨0, _⟩ => ⟨S2x768, .i32⟩
  | .hbm, ⟨1, _⟩ => ⟨S2x768, .i32⟩
  | .hbm, ⟨2, _⟩ => ⟨S2x768, .i32⟩
  | .hbm, ⟨3, _⟩ => ⟨S2x768, .i32⟩
  | .hbm, ⟨4, _⟩ => ⟨S2x768, .i32⟩
  | .hbm, ⟨5, _⟩ => ⟨S2x768, .i32⟩
  | .hbm, ⟨6, _⟩ => ⟨S139x128, .f32⟩
  | .hbm, ⟨7, _⟩ => ⟨S2x768x1, .i32⟩
  | .hbm, ⟨8, _⟩ => ⟨S2x1x768, .i32⟩
  | .hbm, ⟨9, _⟩ => ⟨S2x768x768, .i32⟩
  | .hbm, ⟨10, _⟩ => ⟨S2x768x768, .i32⟩
  | .hbm, ⟨11, _⟩ => ⟨S2x768x768, .i1⟩
  | .hbm, ⟨12, _⟩ => ⟨S2x768x1, .i32⟩
  | .hbm, ⟨13, _⟩ => ⟨S2x1x768, .i32⟩
  | .hbm, ⟨14, _⟩ => ⟨S2x768x768, .i32⟩
  | .hbm, ⟨15, _⟩ => ⟨S2x768x768, .i32⟩
  | .hbm, ⟨16, _⟩ => ⟨S2x768x768, .i1⟩
  | .hbm, ⟨17, _⟩ => ⟨S2x768x1, .i32⟩
  | .hbm, ⟨18, _⟩ => ⟨S2x1x768, .i32⟩
  | .hbm, ⟨19, _⟩ => ⟨S2x768x768, .i32⟩
  | .hbm, ⟨20, _⟩ => ⟨S2x768x768, .i32⟩
  | .hbm, ⟨21, _⟩ => ⟨S2x768x768, .i1⟩
  | .hbm, ⟨22, _⟩ => ⟨S2x768x1, .i32⟩
  | .hbm, ⟨23, _⟩ => ⟨S2x1x768, .i32⟩
  | .hbm, ⟨24, _⟩ => ⟨S2x768x768, .i32⟩
  | .hbm, ⟨25, _⟩ => ⟨S2x768x768, .i32⟩
  | .hbm, ⟨26, _⟩ => ⟨S2x768x768, .i32⟩
  | .hbm, ⟨27, _⟩ => ⟨S_, .i32⟩
  | .hbm, ⟨28, _⟩ => ⟨S2x768, .i32⟩
  | .hbm, ⟨29, _⟩ => ⟨S2x768, .i1⟩
  | .hbm, ⟨30, _⟩ => ⟨S_, .i32⟩
  | .hbm, ⟨31, _⟩ => ⟨S_, .i32⟩
  | .hbm, ⟨32, _⟩ => ⟨S2x768, .i32⟩
  | .hbm, ⟨33, _⟩ => ⟨S2x768, .i32⟩
  | .hbm, ⟨34, _⟩ => ⟨S2x1x768, .i32⟩
  | .hbm, ⟨35, _⟩ => ⟨S2x768x768, .f32⟩
  | .hbm, ⟨36, _⟩ => ⟨S2x1x768, .f32⟩
  | .hbm, ⟨37, _⟩ => ⟨S2x768x768, .f32⟩
  | .hbm, ⟨38, _⟩ => ⟨S2x768x768, .f32⟩
  | .hbm, ⟨39, _⟩ => ⟨S2x768x768, .f32⟩
  | .hbm, ⟨40, _⟩ => ⟨S2x768x768, .i32⟩
  | .hbm, ⟨41, _⟩ => ⟨S2x768x768, .i32⟩
  | .hbm, ⟨42, _⟩ => ⟨S2x768x768, .i32⟩
  | .hbm, ⟨43, _⟩ => ⟨S2x768x768, .i32⟩
  | .hbm, ⟨44, _⟩ => ⟨S_, .i32⟩
  | .hbm, ⟨45, _⟩ => ⟨S2x768x768, .i32⟩
  | .hbm, ⟨46, _⟩ => ⟨S2x768x768, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S2x768x768, .i32⟩
  | .hbm, ⟨51, _⟩ => ⟨S2x768x768, .i32⟩
  | .hbm, ⟨52, _⟩ => ⟨S_, .i32⟩
  | .hbm, ⟨53, _⟩ => ⟨S2x768x768, .i32⟩
  | .hbm, ⟨54, _⟩ => ⟨S2x768x768, .i32⟩
  | .hbm, ⟨55, _⟩ => ⟨S_, .i32⟩
  | .hbm, ⟨56, _⟩ => ⟨S_, .i32⟩
  | .hbm, ⟨57, _⟩ => ⟨S2x768x768, .i32⟩
  | .hbm, ⟨58, _⟩ => ⟨S2x768x768, .i32⟩
  | .hbm, ⟨59, _⟩ => ⟨S2x768x768x1, .i32⟩
  | .hbm, ⟨60, _⟩ => ⟨S1x1x1x66, .i32⟩
  | .hbm, ⟨61, _⟩ => ⟨S2x768x768x66, .i32⟩
  | .hbm, ⟨62, _⟩ => ⟨S2x768x768x66, .i32⟩
  | .hbm, ⟨63, _⟩ => ⟨S2x768x768x66, .i1⟩
  | .hbm, ⟨64, _⟩ => ⟨S2x768x768x66, .f32⟩
  | .hbm, ⟨65, _⟩ => ⟨S2x768x1, .i32⟩
  | .hbm, ⟨66, _⟩ => ⟨S2x1x768, .i32⟩
  | .hbm, ⟨67, _⟩ => ⟨S2x768x768, .i32⟩
  | .hbm, ⟨68, _⟩ => ⟨S2x768x768, .i32⟩
  | .hbm, ⟨69, _⟩ => ⟨S2x768x768, .i32⟩
  | .hbm, ⟨70, _⟩ => ⟨S_, .i32⟩
  | .hbm, ⟨71, _⟩ => ⟨S2x768x768, .i32⟩
  | .hbm, ⟨72, _⟩ => ⟨S2x768x768, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S2x768x768, .i32⟩
  | .hbm, ⟨77, _⟩ => ⟨S2x768x768, .i32⟩
  | .hbm, ⟨78, _⟩ => ⟨S_, .i32⟩
  | .hbm, ⟨79, _⟩ => ⟨S2x768x768, .i32⟩
  | .hbm, ⟨80, _⟩ => ⟨S2x768x768, .i32⟩
  | .hbm, ⟨81, _⟩ => ⟨S2x768x768, .i1⟩
  | .hbm, ⟨82, _⟩ => ⟨S_, .i32⟩
  | .hbm, ⟨83, _⟩ => ⟨S_, .i32⟩
  | .hbm, ⟨84, _⟩ => ⟨S2x768x768, .i32⟩
  | .hbm, ⟨85, _⟩ => ⟨S2x768x768, .i32⟩
  | .hbm, ⟨86, _⟩ => ⟨S2x768x768x1, .i32⟩
  | .hbm, ⟨87, _⟩ => ⟨S1x1x1x66, .i32⟩
  | .hbm, ⟨88, _⟩ => ⟨S2x768x768x66, .i32⟩
  | .hbm, ⟨89, _⟩ => ⟨S2x768x768x66, .i32⟩
  | .hbm, ⟨90, _⟩ => ⟨S2x768x768x66, .i1⟩
  | .hbm, ⟨91, _⟩ => ⟨S2x768x768x66, .f32⟩
  | .hbm, ⟨92, _⟩ => ⟨S2x768x1, .i32⟩
  | .hbm, ⟨93, _⟩ => ⟨S2x1x768, .i32⟩
  | .hbm, ⟨94, _⟩ => ⟨S2x768x768, .i32⟩
  | .hbm, ⟨95, _⟩ => ⟨S2x768x768, .i32⟩
  | .hbm, ⟨96, _⟩ => ⟨S2x768x768, .i32⟩
  | .hbm, ⟨97, _⟩ => ⟨S_, .i32⟩
  | .hbm, ⟨98, _⟩ => ⟨S2x768x768, .i32⟩
  | .hbm, ⟨99, _⟩ => ⟨S2x768x768, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S2x768x768, .i32⟩
  | .hbm, ⟨104, _⟩ => ⟨S2x768x768, .i32⟩
  | .hbm, ⟨105, _⟩ => ⟨S_, .i32⟩
  | .hbm, ⟨106, _⟩ => ⟨S2x768x768, .i32⟩
  | .hbm, ⟨107, _⟩ => ⟨S2x768x768, .i32⟩
  | .hbm, ⟨108, _⟩ => ⟨S_, .i32⟩
  | .hbm, ⟨109, _⟩ => ⟨S_, .i32⟩
  | .hbm, ⟨110, _⟩ => ⟨S2x768x768, .i32⟩
  | .hbm, ⟨111, _⟩ => ⟨S2x768x768, .i32⟩
  | .hbm, ⟨112, _⟩ => ⟨S2x768x768x1, .i32⟩
  | .hbm, ⟨113, _⟩ => ⟨S1x1x1x6, .i32⟩
  | .hbm, ⟨114, _⟩ => ⟨S2x768x768x6, .i32⟩
  | .hbm, ⟨115, _⟩ => ⟨S2x768x768x6, .i32⟩
  | .hbm, ⟨116, _⟩ => ⟨S2x768x768x6, .i1⟩
  | .hbm, ⟨117, _⟩ => ⟨S2x768x768x6, .f32⟩
  | .hbm, ⟨118, _⟩ => ⟨S2x768x768x1, .i1⟩
  | .hbm, ⟨119, _⟩ => ⟨S2x768x768x1, .f32⟩
  | .hbm, ⟨120, _⟩ => ⟨S2x768x768x139, .f32⟩
  | .hbm, ⟨121, _⟩ => ⟨S2x768x768x128, .f32⟩
  | _, _ => ⟨S2x768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_1 : Ref sig .tc := ⟨.hbm, 44, rfl⟩
abbrev main_v33 : Ref sig .tc := ⟨.hbm, 45, rfl⟩
abbrev main_v34 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v35 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_5 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_c_7 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v45 : Ref sig .tc := ⟨.hbm, 80, rfl⟩
abbrev main_v46 : Ref sig .tc := ⟨.hbm, 81, rfl⟩
abbrev main_c_8 : Ref sig .tc := ⟨.hbm, 82, rfl⟩
abbrev main_call6_v0 : Ref sig .tc := ⟨.hbm, 83, rfl⟩
abbrev main_call6_v1 : Ref sig .tc := ⟨.hbm, 84, rfl⟩
abbrev main_v47 : Ref sig .tc := ⟨.hbm, 85, rfl⟩
abbrev main_call7_v0 : Ref sig .tc := ⟨.hbm, 86, rfl⟩
abbrev main_call7_v1 : Ref sig .tc := ⟨.hbm, 87, rfl⟩
abbrev main_call7_v2 : Ref sig .tc := ⟨.hbm, 88, rfl⟩
abbrev main_call7_v3 : Ref sig .tc := ⟨.hbm, 89, rfl⟩
abbrev main_call7_v4 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_9 : Ref sig .tc := ⟨.hbm, 97, rfl⟩
abbrev main_v54 : Ref sig .tc := ⟨.hbm, 98, rfl⟩
abbrev main_v55 : Ref sig .tc := ⟨.hbm, 99, rfl⟩
abbrev main_c_10 : Ref sig .tc := ⟨.hbm, 100, rfl⟩
abbrev main_c_11 : Ref sig .tc := ⟨.hbm, 101, rfl⟩
abbrev main_call8_v0 : Ref sig .tc := ⟨.hbm, 102, rfl⟩
abbrev main_call8_v1 : Ref sig .tc := ⟨.hbm, 103, rfl⟩
abbrev main_call8_v2 : Ref sig .tc := ⟨.hbm, 104, rfl⟩
abbrev main_call8_v3 : Ref sig .tc := ⟨.hbm, 105, rfl⟩
abbrev main_call8_v4 : Ref sig .tc := ⟨.hbm, 106, rfl⟩
abbrev main_v56 : Ref sig .tc := ⟨.hbm, 107, rfl⟩
abbrev main_c_12 : Ref sig .tc := ⟨.hbm, 108, rfl⟩
abbrev main_call9_v0 : Ref sig .tc := ⟨.hbm, 109, rfl⟩
abbrev main_call9_v1 : Ref sig .tc := ⟨.hbm, 110, rfl⟩
abbrev main_v57 : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_call10_v3 : Ref sig .tc := ⟨.hbm, 115, rfl⟩
abbrev main_call10_v4 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩

abbrev nD : Nat := 1
abbrev τ : Topo := Topo.v7x

variable {F : FTy → Type} [FloatOps F]

class Facts₀ : Prop where
  bcast_S2x768_S2x768x1_0_1 : S2x768.BroadcastsInDim S2x768x1 (![0, 1] : Fin 2 → Fin S2x768x1.rank)
  bcast_S2x768_S2x1x768_0_2 : S2x768.BroadcastsInDim S2x1x768 (![0, 2] : Fin 2 → Fin S2x1x768.rank)
  bcast_S2x768x1_S2x768x768_0_1_2 : S2x768x1.BroadcastsInDim S2x768x768 (![0, 1, 2] : Fin 3 → Fin S2x768x768.rank)
  bcast_S2x1x768_S2x768x768_0_1_2 : S2x1x768.BroadcastsInDim S2x768x768 (![0, 1, 2] : Fin 3 → Fin S2x768x768.rank)
  bcast_S_S2x768 : S_.BroadcastsInDim S2x768 (![] : Fin 0 → Fin S2x768.rank)
  bcast_S_S2x768x768 : S_.BroadcastsInDim S2x768x768 (![] : Fin 0 → Fin S2x768x768.rank)
  bcast_S2x768x768_S2x768x768x1_0_1_2 : S2x768x768.BroadcastsInDim S2x768x768x1 (![0, 1, 2] : Fin 3 → Fin S2x768x768x1.rank)
  bcast_S2x768x768x1_S2x768x768x66_0_1_2_3 : S2x768x768x1.BroadcastsInDim S2x768x768x66 (![0, 1, 2, 3] : Fin 4 → Fin S2x768x768x66.rank)
  bcast_S1x1x1x66_S2x768x768x66_0_1_2_3 : S1x1x1x66.BroadcastsInDim S2x768x768x66 (![0, 1, 2, 3] : Fin 4 → Fin S2x768x768x66.rank)
  bcast_S2x768x768x1_S2x768x768x6_0_1_2_3 : S2x768x768x1.BroadcastsInDim S2x768x768x6 (![0, 1, 2, 3] : Fin 4 → Fin S2x768x768x6.rank)
  bcast_S1x1x1x6_S2x768x768x6_0_1_2_3 : S1x1x1x6.BroadcastsInDim S2x768x768x6 (![0, 1, 2, 3] : Fin 4 → Fin S2x768x768x6.rank)
  concatenates_S2x768x768x66_S2x768x768x66_S2x768x768x1_S2x768x768x6_S2x768x768x139_d3 : Shape.Concatenates [S2x768x768x66, S2x768x768x66, S2x768x768x1, S2x768x768x6] S2x768x768x139 3
  dot_S2x768x768x139_S139x128_S2x768x768x128_3_0_012_1_n_n_wf : DotDims.WF S2x768x768x139 S139x128 S2x768x768x128 [3] [0] [0, 1, 2] [1] [] []

variable [Facts₀]

def dot_S2x768x768x139_S139x128_S2x768x768x128_3_0_012_1_n_n : DotDims S2x768x768x139 S139x128 S2x768x768x128 where
  lhsContracting := [3]
  rhsContracting := [0]
  lhsNonContracting := [0, 1, 2]
  rhsNonContracting := [1]
  lhsBatch := []
  rhsBatch := []
  wf := dot_S2x768x768x139_S139x128_S2x768x768x128_3_0_012_1_n_n_wf

class Facts : Prop extends Facts₀ where

variable [Facts]
-- ==== Proof.PairFeatures.lean ====
/-
  The pair features of a relative position encoding, word by word.

  For two tokens i (the row) and j (the column) of one batch entry the encoder reads eleven 32-bit words: the chain
  ids a_i, a_j, the residue indices r_i, r_j, the entity ids e_i, e_j, the column's cyclic period c_j, the token indices
  t_i, t_j and the symmetry ids s_i, s_j. From them it forms three bins,
    dRes   = same chain ? clip (relPos + 32) to [0, 64] : 65      (relPos the residue offset, reduced by the period),
    dTok   = same chain and same residue ? clip (t_i - t_j + 32) to [0, 64] : 65,
    dChain = same chain ? 5 : clip (s_i - s_j + 2) to [0, 4],
  and one bit, same entity. The 139 features are the one-hot of dRes over 66 positions, the one-hot of dTok over the
  next 66, the entity bit at position 132, and the one-hot of dChain over the last 6. The output entry is the sum over
  the 139 features of feature times weight.

  Two spellings of the 139 features are compared here. `feat` selects by the position's range which one-hot is read and
  compares the bin with the position's offset inside that range. `fused` compares the position k itself with ONE target
  word chosen by k's range: dRes below 66, dTok + 66 below 132, (entity bit ? 132 : -1) at 132, dChain + 133 above.
  They are equal (`fused_eq_feat`): in each range, k = bin + offset iff bin = k - offset in 32-bit arithmetic, and at
  k = 132 the comparison with 132 or -1 is the entity bit. A one-bit word zero-extended to 32 bits and read signed is
  the bit read unsigned (`bit_real`), so both spellings give 0 or 1 as extended reals.
-/
import Idealize.ShloMosaic.PureOps.Ideal
import Idealize.ShloMosaic.Lib.ValueIdx

noncomputable section

open scoped BigOperators

namespace Cert.PairFeat

open Idealize.ShloMosaic Idealize.ShloMosaic.ValueIdx

/-! ## The bins -/

/-- Two words are equal, as a bit. -/
def same (x y : BitVec 32) : BitVec 1 := IntOp.cmpi .eq x y

/-- The column's period: its cyclic period where positive, ten thousand otherwise. -/
def period (cy : BitVec 32) : BitVec 32 := Scalar.select (IntOp.cmpi .sgt cy 0#32) cy 10000#32

/-- The residue offset r_i - r_j less the period times the offset's quotient by the period rounded to the nearest
    integer (ties to even), in 32-bit arithmetic; the quotient is taken on the extended reals. -/
def relPos (ri rj cy : BitVec 32) : BitVec 32 :=
  IntOp.subi (IntOp.subi ri rj) (IntOp.muli (period cy)
    (FloatOps.fptosi (F := Ideal) (φ := .f32) 32 (FloatOps.roundeven (F := Ideal) (φ := .f32)
      (FloatOps.divf (F := Ideal) (φ := .f32) (FloatOps.sitofp (F := Ideal) .f32 (IntOp.subi ri rj))
        (FloatOps.sitofp (F := Ideal) .f32 (period cy))))))

/-- A signed word clipped to [0, hi]. -/
def clip (hi x : BitVec 32) : BitVec 32 := IntOp.minsi hi (IntOp.maxsi 0#32 x)

def dRes (ai aj ri rj cy : BitVec 32) : BitVec 32 :=
  Scalar.select (same ai aj) (clip 64#32 (IntOp.addi (relPos ri rj cy) 32#32)) 65#32

def dTok (ai aj ri rj ti tj : BitVec 32) : BitVec 32 :=
  Scalar.select (IntOp.andi (same ai aj) (same ri rj)) (clip 64#32 (IntOp.addi (IntOp.subi ti tj) 32#32)) 65#32

def dChain (ai aj si sj : BitVec 32) : BitVec 32 :=
  Scalar.select (same ai aj) 5#32 (clip 4#32 (IntOp.addi (IntOp.subi si sj) 2#32))

/-! ## The 139 features, in two spellings -/

/-- Feature k: the one-hot read by k's range, the bin compared with k's offset in the range. -/
def feat (dr dt dc : BitVec 32) (se : BitVec 1) (k : Fin 139) : EReal :=
  if k.val < 66 then FloatOps.uitofp (F := Ideal) .f32 (IntOp.cmpi .eq dr (BitVec.ofNat 32 k.val))
  else if k.val < 132 then FloatOps.uitofp (F := Ideal) .f32 (IntOp.cmpi .eq dt (BitVec.ofNat 32 (k.val - 66)))
  else if k.val < 133 then FloatOps.uitofp (F := Ideal) .f32 se
  else FloatOps.uitofp (F := Ideal) .f32 (IntOp.cmpi .eq dc (BitVec.ofNat 32 (k.val - 133)))

/-- Feature k: the position k compared with one target word chosen by k's range. -/
def fused (dr dt dc : BitVec 32) (se : BitVec 1) (k : Fin 139) : EReal :=
  FloatOps.sitofp (F := Ideal) .f32 ((IntOp.cmpi .eq (BitVec.ofNat 32 k.val)
    (Scalar.select (IntOp.cmpi .slt (BitVec.ofNat 32 k.val) 66#32) dr
      (Scalar.select (IntOp.cmpi .slt (BitVec.ofNat 32 k.val) 132#32) (IntOp.addi dt 66#32)
        (Scalar.select (IntOp.cmpi .slt (BitVec.ofNat 32 k.val) 133#32) (Scalar.select se 132#32 4294967295#32)
          (IntOp.addi dc 133#32))))).setWidth 32)

/-- A bit zero-extended to 32 bits and read signed is the bit read unsigned. -/
theorem bit_real (b : BitVec 1) :
    FloatOps.sitofp (F := Ideal) .f32 (b.setWidth 32) = FloatOps.uitofp (F := Ideal) .f32 b := by
  have h : ∀ b : BitVec 1, (b.setWidth 32).toInt = (b.toNat : Int) := by decide
  show ((((b.setWidth 32).toInt : Int) : ℝ) : EReal) = (((b.toNat : Nat) : ℝ) : EReal)
  rw [h b, Int.cast_natCast]

/-- Where a position below 139 stands against the three range ends. -/
theorem below66 : ∀ k : Fin 139, IntOp.cmpi .slt (BitVec.ofNat 32 k.val) 66#32 = if k.val < 66 then 1#1 else 0#1 := by
  decide +kernel
theorem below132 : ∀ k : Fin 139, IntOp.cmpi .slt (BitVec.ofNat 32 k.val) 132#32 = if k.val < 132 then 1#1 else 0#1 := by
  decide +kernel
theorem below133 : ∀ k : Fin 139, IntOp.cmpi .slt (BitVec.ofNat 32 k.val) 133#32 = if k.val < 133 then 1#1 else 0#1 := by
  decide +kernel

/-- A position's offset in the second and in the last range, as words. -/
theorem off66 : ∀ k : Fin 139, 66 ≤ k.val → BitVec.ofNat 32 k.val - 66#32 = BitVec.ofNat 32 (k.val - 66) := by
  decide +kernel
theorem off133 : ∀ k : Fin 139, 133 ≤ k.val → BitVec.ofNat 32 k.val - 133#32 = BitVec.ofNat 32 (k.val - 133) := by
  decide +kernel

/-- Equality of words as a bit is symmetric. -/
theorem same_comm (x y : BitVec 32) : IntOp.cmpi .eq x y = IntOp.cmpi .eq y x := by
  show BitVec.ofBool (x == y) = BitVec.ofBool (y == x)
  rw [Bool.beq_comm]

/-- n = d + c iff d = n - c, as bits. -/
theorem same_shift (n d c : BitVec 32) : IntOp.cmpi .eq n (IntOp.addi d c) = IntOp.cmpi .eq d (n - c) := by
  show BitVec.ofBool (n == d + c) = BitVec.ofBool (d == n - c)
  congr 1
  rw [Bool.eq_iff_iff, beq_iff_eq, beq_iff_eq]
  constructor
  · intro h; rw [h, BitVec.add_sub_cancel]
  · intro h; rw [h, BitVec.sub_add_cancel]

/-- At position 132 the comparison with 132 or with -1 is the entity bit. -/
theorem at132 : ∀ se : BitVec 1,
    IntOp.cmpi .eq (BitVec.ofNat 32 132) (Scalar.select se 132#32 4294967295#32) = se := by
  decide

/-- The two spellings of the features agree. -/
theorem fused_eq_feat (dr dt dc : BitVec 32) (se : BitVec 1) (k : Fin 139) : fused dr dt dc se k = feat dr dt dc se k := by
  unfold fused feat
  rw [bit_real, below66 k, below132 k, below133 k]
  by_cases h1 : k.val < 66
  · simp only [h1, ↓reduceIte, select_one]
    rw [same_comm]
  · simp only [h1, ↓reduceIte, select_zero]
    by_cases h2 : k.val < 132
    · simp only [h2, ↓reduceIte, select_one]
      rw [same_shift, off66 k (by omega)]
    · simp only [h2, ↓reduceIte, select_zero]
      by_cases h3 : k.val < 133
      · simp only [h3, ↓reduceIte, select_one]
        have hk : k.val = 132 := by omega
        rw [hk, at132]
      · simp only [h3, ↓reduceIte, select_zero]
        rw [same_shift, off133 k (by omega)]

/-! ## One output entry -/

/-- The features of a pair of tokens from their eleven words. -/
def pairFeat (ai aj ri rj ei ej cj ti tj si sj : BitVec 32) (k : Fin 139) : EReal :=
  feat (dRes ai aj ri rj cj) (dTok ai aj ri rj ti tj) (dChain ai aj si sj) (same ei ej) k

/-- One output entry: the features against one column of the weights. -/
def pairOut (ai aj ri rj ei ej cj ti tj si sj : BitVec 32) (w : Fin 139 → EReal) : EReal :=
  ∑ k : Fin 139, pairFeat ai aj ri rj ei ej cj ti tj si sj k * w k

/-- The whole result: entry (b, l, m, z) pairs token l with token m of batch entry b against weight column z. -/
def encode (a r e c t s : (⟨2, ![2, 768]⟩ : Shape).Idx → BitVec 32) (W : (⟨2, ![139, 128]⟩ : Shape).Idx → EReal) :
    (⟨4, ![2, 768, 768, 128]⟩ : Shape).Idx → EReal :=
  fun i => pairOut (a (ix2 (i 0) (i 1))) (a (ix2 (i 0) (i 2))) (r (ix2 (i 0) (i 1))) (r (ix2 (i 0) (i 2)))
    (e (ix2 (i 0) (i 1))) (e (ix2 (i 0) (i 2))) (c (ix2 (i 0) (i 2))) (t (ix2 (i 0) (i 1))) (t (ix2 (i 0) (i 2)))
    (s (ix2 (i 0) (i 1))) (s (ix2 (i 0) (i 2))) (fun k => W (ix2 k (i 3)))

end Cert.PairFeat

end
-- ==== Proof.LibTrailingAxes.lean ====
/-
  Layout operations around a trailing axis, read at coordinate indices, over any element type and any extents.

  * a column [a, 1] broadcast to [a, b] reads, at (p, c), the column at (p, 0);
  * an [a, b] array cast to [a, b, 1] reads, at (i, j, u), the array at (i, j): the unit axis carries no position;
  * an [a, b, 1] array broadcast to [a, b, c] reads, at (i, j, k), the array at (i, j, 0);
  * an [a, b, c] array cast to [n, c] with n = a * b (the two leading axes merged, rows in row-major order) reads, at
    (p, k) with p = i * b + j, the array at (i, j, k); and the cast back from [n, c] to [a, b, c] reads, at (i, j, k),
    the matrix at (i * b + j, k).
  Each is the library's read of a shape cast (equal row-major positions) or of a broadcast (trailing coordinates, zero on
  the operand's unit axes) spelled with indices built from their coordinates.
-/
import Idealize.ShloMosaic.Lib.Pipeline.Value
import Idealize.ShloMosaic.Lib.ValueIdx

noncomputable section

namespace Cert.LibTrailingAxes

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a, b] array cast to [a, b, 1] reads, at (i, j, u), the array at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the array at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, b, c] array cast to [n, c], the two leading axes merged: row p = i * b + j reads the array at (i, j, ·). -/
theorem shapeCast_abc_nc_apply {a b c n : ℕ} (x : (⟨3, ![a, b, c]⟩ : Shape).Idx → α)
    (h : (⟨3, ![a, b, c]⟩ : Shape).ShapeCasts ⟨2, ![n, c]⟩) (p : Fin n) (k : Fin c) (i : Fin a) (j : Fin b)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An [n, c] matrix cast to [a, b, c], the leading axis split: entry (i, j, k) reads the matrix at row p = i * b + j. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

end Cert.LibTrailingAxes

end
-- ==== Proof.KernelEntry.lean ====
/-
  One entry of the block the kernel body stores, as the pair features of its row and its column.

  The body loads eleven blocks of words — for the block's 96 rows the chain, residue, entity, token and symmetry
  words as columns [1, 96, 1], for its 128 columns the same five and the cyclic period as rows [1, 1, 128] — and the
  whole weight table [139, 128]. Every operation between the loads and the matrix product is pointwise once the row
  columns are broadcast along the columns and the column rows along the rows, so at block position (r, c) each of the
  three bins is the scalar bin of row r's and column c's words (`dRes_at`, `dTok_at`, `dChain_at`).
  The one-hot [96, 128, 139] compares the position along its last axis with a target chosen by that position's
  range: at (r, c, k) it is the fused spelling of feature k (`Cert.PairFeat.fused`). Flattened to [12288, 139] and
  multiplied into a zero accumulator with the [139, 128] table, row r * 128 + c and column z give the sum over k of
  feature k times weight (k, z) (`matmul_rows`: a product with one contracted axis is the row-by-column sum on the
  extended reals; rounding the operands to bf16 is the identity there). Cast back to [96, 128, 128] and to
  [1, 96, 128, 128], the stored entry (0, r, c, z) is `Cert.PairFeat.pairOut` of the eleven words (`stored_entry`).
-/
import proofs.«103539_j69999376990394_2_alg».proof.Proof.Gen.KernelIdeal.Skeleton
import proofs.«103539_j69999376990394_2_alg».proof.Proof.PairFeatures
import proofs.«103539_j69999376990394_2_alg».proof.Proof.LibTrailingAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entry

open Cert.KernelIdeal Cert.KernelIdeal.Gen Idealize.ShloMosaic Idealize.ShloMosaic.ValueIdx Cert.PairFeat Cert.LibTrailingAxes

variable [Facts]

/-! ## Pointwise operations on words, read at an index -/

section Words
variable {s : Shape} {w : Nat}
theorem cmpi_at (p : CmpIPredicate) (x y : IVec s w) (i : s.Idx) : cmpi p x y i = IntOp.cmpi p (x i) (y i) := rfl
theorem subi_at (x y : IVec s w) (i : s.Idx) : subi x y i = IntOp.subi (x i) (y i) := rfl
theorem addi_at (x y : IVec s w) (i : s.Idx) : addi x y i = IntOp.addi (x i) (y i) := rfl
theorem muli_at (x y : IVec s w) (i : s.Idx) : muli x y i = IntOp.muli (x i) (y i) := rfl
theorem andi_at (x y : IVec s w) (i : s.Idx) : andi x y i = IntOp.andi (x i) (y i) := rfl
theorem maxsi_at (x y : IVec s w) (i : s.Idx) : maxsi x y i = IntOp.maxsi (x i) (y i) := rfl
theorem minsi_at (x y : IVec s w) (i : s.Idx) : minsi x y i = IntOp.minsi (x i) (y i) := rfl
theorem fptosi_at (x : FVec Ideal s .f32) (i : s.Idx) : fptosi w x i = FloatOps.fptosi w (x i) := rfl
theorem roundeven_at (x : FVec Ideal s .f32) (i : s.Idx) : roundeven x i = FloatOps.roundeven (x i) := rfl
theorem quotient_at (x y : FVec Ideal s .f32) (i : s.Idx) : divf x y i = FloatOps.divf (x i) (y i) := rfl
end Words

/-! ## A row's word and a column's word at a block position -/

/-- A [1, 96, 1] block cast to a column and broadcast along the columns: at (r, c) the word of row r. -/
theorem rowWord {α : Type} (x : S1x96x1.Idx → α) (h1 : S1x96x1.ShapeCasts S96x1) (h2 : S96x1.Broadcasts S96x128)
    (r : Fin 96) (c : Fin 128) :
    broadcastTo S96x128 (shapeCast S96x1 x h1) h2 (ix2 r c) = x (ix3 (0 : Fin 1) r (0 : Fin 1)) :=
  (broadcastTo_a1_ab_apply _ h2 r c).trans (shapeCast_1ab_ab_apply x h1 r (0 : Fin 1))

/-- A [1, 1, 128] block cast to a row: at (0, c) the word of column c. -/
theorem colCast {α : Type} (x : S1x1x128.Idx → α) (h1 : S1x1x128.ShapeCasts S1x128) (c : Fin 128) :
    shapeCast S1x128 x h1 (ix2 (0 : Fin 1) c) = x (ix3 (0 : Fin 1) (0 : Fin 1) c) :=
  shapeCast_1ab_ab_apply x h1 (0 : Fin 1) c

/-- A row [1, 128] broadcast along the rows: at (r, c) its entry of column c. -/
theorem colSpread {α : Type} (y : S1x128.Idx → α) (h2 : S1x128.Broadcasts S96x128) (r : Fin 96) (c : Fin 128) :
    broadcastTo S96x128 y h2 (ix2 r c) = y (ix2 (0 : Fin 1) c) :=
  broadcastTo_1b_ab_apply y h2 r c

/-- A column [96, 1] broadcast along the columns: at (r, c) its entry of row r. -/
theorem rowSpread {α : Type} (y : S96x1.Idx → α) (h2 : S96x1.Broadcasts S96x128) (r : Fin 96) (c : Fin 128) :
    broadcastTo S96x128 y h2 (ix2 r c) = y (ix2 r (0 : Fin 1)) :=
  broadcastTo_a1_ab_apply y h2 r c

/-! ## The three bins at a block position -/

/-- The residue bin at (r, c) is the scalar bin of row r's and column c's chain, residue and period words. -/
theorem dRes_at (P0 P2 : Vec Ideal S1x96x1 .i32) (P1 P3 P4 : Vec Ideal S1x1x128 .i32) (r : Fin 96) (c : Fin 128) :
    k0_pay8 (k0_pay2 P0 P1) (k0_pay6 (F := Ideal) P2 P3 P4) k0_pay7 (ix2 r c)
      = dRes (P0 (ix3 (0 : Fin 1) r (0 : Fin 1))) (P1 (ix3 (0 : Fin 1) (0 : Fin 1) c))
          (P2 (ix3 (0 : Fin 1) r (0 : Fin 1))) (P3 (ix3 (0 : Fin 1) (0 : Fin 1) c)) (P4 (ix3 (0 : Fin 1) (0 : Fin 1) c)) := by
  unfold k0_pay8 k0_pay2 k0_pay6 k0_pay7 k0_pay3 k0_pay4
  dsimp only
  simp only [select_apply, cmpi_at, subi_at, addi_at, muli_at, maxsi_at, minsi_at, fptosi_at, roundeven_at, quotient_at,
    sitofp_apply, broadcast_apply, rowWord, colSpread, colCast]
  rfl

/-- The token bin at (r, c), likewise from the chain, residue and token words. -/
theorem dTok_at (P0 P2 P5 : Vec Ideal S1x96x1 .i32) (P1 P3 P6 : Vec Ideal S1x1x128 .i32) (r : Fin 96) (c : Fin 128) :
    k0_pay9 (F := Ideal) (k0_pay2 P0 P1) (k0_pay5 P2 P3) P5 P6 (ix2 r c)
      = dTok (P0 (ix3 (0 : Fin 1) r (0 : Fin 1))) (P1 (ix3 (0 : Fin 1) (0 : Fin 1) c))
          (P2 (ix3 (0 : Fin 1) r (0 : Fin 1))) (P3 (ix3 (0 : Fin 1) (0 : Fin 1) c))
          (P5 (ix3 (0 : Fin 1) r (0 : Fin 1))) (P6 (ix3 (0 : Fin 1) (0 : Fin 1) c)) := by
  unfold k0_pay9 k0_pay2 k0_pay5 k0_pay3 k0_pay4
  dsimp only
  simp only [select_apply, cmpi_at, subi_at, addi_at, andi_at, maxsi_at, minsi_at, broadcast_apply, rowWord, colSpread, colCast]
  rfl

/-- The chain bin at (r, c), likewise from the chain and symmetry words. -/
theorem dChain_at (P0 P7 : Vec Ideal S1x96x1 .i32) (P1 P8 : Vec Ideal S1x1x128 .i32) (r : Fin 96) (c : Fin 128) :
    k0_pay10 (F := Ideal) (k0_pay2 P0 P1) P7 P8 (ix2 r c)
      = dChain (P0 (ix3 (0 : Fin 1) r (0 : Fin 1))) (P1 (ix3 (0 : Fin 1) (0 : Fin 1) c))
          (P7 (ix3 (0 : Fin 1) r (0 : Fin 1))) (P8 (ix3 (0 : Fin 1) (0 : Fin 1) c)) := by
  unfold k0_pay10 k0_pay2
  dsimp only
  simp only [select_apply, cmpi_at, subi_at, addi_at, maxsi_at, minsi_at, broadcast_apply, rowWord, colSpread, colCast]
  rfl

/-- The entity column at row r is the loaded entity word of row r. -/
theorem entRow_at (P9 : Vec Ideal S1x96x1 .i32) (r : Fin 96) :
    k0_pay11 (F := Ideal) P9 (ix2 r (0 : Fin 1)) = P9 (ix3 (0 : Fin 1) r (0 : Fin 1)) := by
  unfold k0_pay11
  exact shapeCast_1ab_ab_apply P9 _ r (0 : Fin 1)

/-! ## The matrix product as row-by-column sums -/

/-- The position along the one-hot's last axis, as a word. -/
theorem iota_feature (h : S96x128x139.Iotas .tc 32 [2]) (r : Fin 96) (c : Fin 128) (k : Fin 139) :
    iota .tc S96x128x139 32 [2] h (ix3 r c k) = BitVec.ofNat 32 k.val := by
  show BitVec.ofNat 32 (0 * 139 + k.val) = _
  rw [Nat.zero_mul, Nat.zero_add]

/-- The product's operand indices at an output index and a contracted position, coordinate by coordinate. -/
theorem lhs_row (i : S12288x128.Idx) (q : dot_S12288x139_S139x128_S12288x128_1_0_0_1_n_n.contr.Idx) : (dot_S12288x139_S139x128_S12288x128_1_0_0_1_n_n.lhsIdx i q 0).val = (i 0).val := by
  unfold DotDims.lhsIdx
  rw [dif_neg (show ¬(0 : Fin S12288x139.rank) ∈ dot_S12288x139_S139x128_S12288x128_1_0_0_1_n_n.lhsBatch by decide),
    dif_pos (show (0 : Fin S12288x139.rank) ∈ dot_S12288x139_S139x128_S12288x128_1_0_0_1_n_n.lhsNonContracting by decide)]
  rfl
theorem lhs_contr (i : S12288x128.Idx) (q : dot_S12288x139_S139x128_S12288x128_1_0_0_1_n_n.contr.Idx) : (dot_S12288x139_S139x128_S12288x128_1_0_0_1_n_n.lhsIdx i q 1).val = (q ⟨0, by decide⟩).val :=
  dot_S12288x139_S139x128_S12288x128_1_0_0_1_n_n.lhsIdx_val_of_single rfl i q
theorem rhs_contr (i : S12288x128.Idx) (q : dot_S12288x139_S139x128_S12288x128_1_0_0_1_n_n.contr.Idx) : (dot_S12288x139_S139x128_S12288x128_1_0_0_1_n_n.rhsIdx i q 0).val = (q ⟨0, by decide⟩).val :=
  dot_S12288x139_S139x128_S12288x128_1_0_0_1_n_n.rhsIdx_val_of_single rfl i q
theorem rhs_col (i : S12288x128.Idx) (q : dot_S12288x139_S139x128_S12288x128_1_0_0_1_n_n.contr.Idx) : (dot_S12288x139_S139x128_S12288x128_1_0_0_1_n_n.rhsIdx i q 1).val = (i 1).val := by
  unfold DotDims.rhsIdx
  rw [dif_neg (show ¬(1 : Fin S139x128.rank) ∈ dot_S12288x139_S139x128_S12288x128_1_0_0_1_n_n.rhsBatch by decide),
    dif_pos (show (1 : Fin S139x128.rank) ∈ dot_S12288x139_S139x128_S12288x128_1_0_0_1_n_n.rhsNonContracting by decide)]
  rfl

/-- A [12288, 139] by [139, 128] product into the zero accumulator: entry (p, z) is the sum over the 139 contracted
    positions of the left operand's row p against the right operand's column z. -/
theorem matmul_rows (lhs : FVec Ideal S12288x139 .bf16) (rhs : FVec Ideal S139x128 .bf16) (p : Fin 12288) (z : Fin 128) :
    matmul dot_S12288x139_S139x128_S12288x128_1_0_0_1_n_n none lhs rhs (constant S12288x128 .f32 0x00000000#32) (ix2 p z)
      = ∑ k : Fin 139, lhs (ix2 p k) * rhs (ix2 k z) := by
  refine (Ideal.matmul_constant_zero_apply dot_S12288x139_S139x128_S12288x128_1_0_0_1_n_n none lhs rhs (ix2 p z)).trans ?_
  rw [← Equiv.sum_comp (contrEquiv1 dot_S12288x139_S139x128_S12288x128_1_0_0_1_n_n 139 rfl rfl).symm]
  refine Finset.sum_congr rfl fun k _ => ?_
  have hk := contrEquiv1_symm_val dot_S12288x139_S139x128_S12288x128_1_0_0_1_n_n 139 rfl rfl k
  have el : dot_S12288x139_S139x128_S12288x128_1_0_0_1_n_n.lhsIdx (ix2 p z) ((contrEquiv1 dot_S12288x139_S139x128_S12288x128_1_0_0_1_n_n 139 rfl rfl).symm k) = ix2 p k :=
    funext fun a => Fin.ext (by
      match a with
      | ⟨0, _⟩ => exact lhs_row _ _
      | ⟨1, _⟩ => exact (lhs_contr _ _).trans hk)
  have er : dot_S12288x139_S139x128_S12288x128_1_0_0_1_n_n.rhsIdx (ix2 p z) ((contrEquiv1 dot_S12288x139_S139x128_S12288x128_1_0_0_1_n_n 139 rfl rfl).symm k) = ix2 k z :=
    funext fun a => Fin.ext (by
      match a with
      | ⟨0, _⟩ => exact (rhs_contr _ _).trans hk
      | ⟨1, _⟩ => exact rhs_col _ _)
  rw [el, er]

/-- The block's entry (r, c, z) from the three bins as vectors, the entity column and row, and the weights: the fused
    features of position (r, c) against weight column z. -/
theorem block_entry (v39 v55 v70 : IVec S96x128 32) (v72 : IVec S96x1 32) (v73 : Vec Ideal S1x1x128 .i32)
    (v112 : Vec Ideal S139x128 .f32) (r : Fin 96) (c z : Fin 128) :
    k0_pay12 (F := Ideal) v39 v55 v70 v72 v73 v112 (ix3 r c z)
      = ∑ k : Fin 139, fused (v39 (ix2 r c)) (v55 (ix2 r c)) (v70 (ix2 r c))
          (same (v72 (ix2 r (0 : Fin 1))) (v73 (ix3 (0 : Fin 1) (0 : Fin 1) c))) k * (v112 (ix2 k z) : EReal) := by
  unfold k0_pay12
  dsimp only
  refine (shapeCast_nc_abc_apply _ _ r c z (⟨r.val * 128 + c.val, by omega⟩ : Fin 12288) rfl).trans ?_
  refine (matmul_rows _ _ _ z).trans ?_
  refine Finset.sum_congr rfl fun k _ => ?_
  refine congrArg (· * (v112 (ix2 k z) : EReal)) ?_
  refine (shapeCast_abc_nc_apply _ _ (⟨r.val * 128 + c.val, by omega⟩ : Fin 12288) k r c rfl).trans ?_
  simp only [truncf_apply, sitofp_apply, extui_apply, select_apply, cmpi_at, addi_at, broadcast_apply,
    broadcastTo_ab1_abc_apply, shapeCast_self, shapeCast_ab_ab1_apply, rowSpread, colSpread, colCast]
  rw [iota_feature]
  rfl

/-! ## The stored entry -/

/-- What the body stores at (0, r, c, z) of its output block, from the twelve loaded blocks. -/
theorem stored_entry (P0 P2 P5 P7 P9 : Vec Ideal S1x96x1 .i32) (P1 P3 P4 P6 P8 P10 : Vec Ideal S1x1x128 .i32)
    (P11 : Vec Ideal S139x128 .f32) (r : Fin 96) (c z : Fin 128) :
    k0_pay1 (k0_pay12 (F := Ideal) (k0_pay8 (k0_pay2 P0 P1) (k0_pay6 P2 P3 P4) k0_pay7)
        (k0_pay9 (k0_pay2 P0 P1) (k0_pay5 P2 P3) P5 P6) (k0_pay10 (k0_pay2 P0 P1) P7 P8) (k0_pay11 P9) P10 P11)
        (ix4 (0 : Fin 1) r c z)
      = pairOut (P0 (ix3 (0 : Fin 1) r (0 : Fin 1))) (P1 (ix3 (0 : Fin 1) (0 : Fin 1) c))
          (P2 (ix3 (0 : Fin 1) r (0 : Fin 1))) (P3 (ix3 (0 : Fin 1) (0 : Fin 1) c))
          (P9 (ix3 (0 : Fin 1) r (0 : Fin 1))) (P10 (ix3 (0 : Fin 1) (0 : Fin 1) c))
          (P4 (ix3 (0 : Fin 1) (0 : Fin 1) c))
          (P5 (ix3 (0 : Fin 1) r (0 : Fin 1))) (P6 (ix3 (0 : Fin 1) (0 : Fin 1) c))
          (P7 (ix3 (0 : Fin 1) r (0 : Fin 1))) (P8 (ix3 (0 : Fin 1) (0 : Fin 1) c))
          (fun k => (P11 (ix2 k z) : EReal)) := by
  unfold k0_pay1
  refine (shapeCast_abc_1abc_apply _ _ (0 : Fin 1) r c z).trans ?_
  refine (block_entry _ _ _ _ _ _ r c z).trans ?_
  unfold pairOut pairFeat
  refine Finset.sum_congr rfl fun k _ => ?_
  rw [fused_eq_feat, dRes_at, dTok_at, dChain_at, entRow_at]

end Cert.KernelIdeal.Entry

end
-- ==== Proof.KernelBlocks.lean ====
/-
  From the blocks the grid points write to the whole result array.

  The call's grid has 2 x 8 x 6 points; point (B, I, J) writes block (B, I, J, 0) of the result [2, 768, 768, 128], of
  extents [1, 96, 128, 128]: array entry (B, 96 I + r, 128 J + c, z) is block entry (0, r, c, z). The row windows
  (blocks [1, 96, 1] at (B, I, 0) of a [2, 768, 1] array) and the column windows (blocks [1, 1, 128] at (B, 0, J) of a
  [2, 1, 768] array) move with it, and the weights' window is the whole table at every point (`idx_w…`, `idx_out`,
  decided over the 96 points). The arrays the windows read were written before the call by broadcasts of the word
  arrays [2, 768] to a unit last or middle axis, so a row block's entry r is the word of token 96 I + r and a column
  block's entry c the word of token 128 J + c of batch entry B (`arr_…`, `blk_w…`). With the stored entry as the pair
  features of its row's and column's words (`Cert.KernelIdeal.Entry.stored_entry`), what point t writes back is block t
  of `Cert.PairFeat.encode` of the seven arguments (`flushed_eq`); the 96 blocks tile the array (`covered`), so the array
  ends at that function (`final`), and the run is the generated frame run with its result named (`run`).
-/
import proofs.«103539_j69999376990394_2_alg».proof.Proof.KernelValuePatched
import proofs.«103539_j69999376990394_2_alg».proof.Proof.KernelEntry
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.PairFeat
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays the windows read -/

/-- A word array with a unit last axis added: at (b, l, u) the word of token l. -/
theorem rowArr_read {α : Type} (x : S2x768.Idx → α) (h : S2x768.BroadcastsInDim S2x768x1 ![0, 1])
    (b : Fin 2) (l : Fin 768) (u : Fin 1) : broadcastInDim S2x768x1 ![0, 1] h x (ix3 b l u) = x (ix2 b l) :=
  broadcastInDim_apply _ h x (ix3 b l u) (ix2 b l) (fun a => match a with
    | ⟨0, _⟩ => by show b.val = if (2 : Nat) = 1 then 0 else b.val; rw [if_neg (by decide)]
    | ⟨1, _⟩ => by show l.val = if (768 : Nat) = 1 then 0 else l.val; rw [if_neg (by decide)])

/-- A word array with a unit middle axis added: at (b, u, l) the word of token l. -/
theorem colArr_read {α : Type} (x : S2x768.Idx → α) (h : S2x768.BroadcastsInDim S2x1x768 ![0, 2])
    (b : Fin 2) (u : Fin 1) (l : Fin 768) : broadcastInDim S2x1x768 ![0, 2] h x (ix3 b u l) = x (ix2 b l) :=
  broadcastInDim_apply _ h x (ix3 b u l) (ix2 b l) (fun a => match a with
    | ⟨0, _⟩ => by show b.val = if (2 : Nat) = 1 then 0 else b.val; rw [if_neg (by decide)]
    | ⟨1, _⟩ => by show l.val = if (768 : Nat) = 1 then 0 else l.val; rw [if_neg (by decide)])

theorem arr_main_v0 (c : Dev nD) (b : Fin 2) (l : Fin 768) (u : Fin 1) :
    (V m c main_v0 : S2x768x1.Idx → BitVec 32) (ix3 b l u) = ((m ((c.tc : Thread nD τ).loc main_arg0)) : S2x768.Idx → BitVec 32) (ix2 b l) := by
  have e : (V m c main_v0 : S2x768x1.Idx → BitVec 32)
      = broadcastInDim S2x768x1 ![0, 1] bcast_S2x768_S2x768x1_0_1 (m ((c.tc : Thread nD τ).loc main_arg0)) := by
    dsimp only [Gen.V, Gen.hostOps0]; after_results
  rw [e]; exact rowArr_read _ _ b l u

theorem arr_main_v1 (c : Dev nD) (b : Fin 2) (u : Fin 1) (l : Fin 768) :
    (V m c main_v1 : S2x1x768.Idx → BitVec 32) (ix3 b u l) = ((m ((c.tc : Thread nD τ).loc main_arg0)) : S2x768.Idx → BitVec 32) (ix2 b l) := by
  have e : (V m c main_v1 : S2x1x768.Idx → BitVec 32)
      = broadcastInDim S2x1x768 ![0, 2] bcast_S2x768_S2x1x768_0_2 (m ((c.tc : Thread nD τ).loc main_arg0)) := by
    dsimp only [Gen.V, Gen.hostOps0]; after_results
  rw [e]; exact colArr_read _ _ b u l

theorem arr_main_v2 (c : Dev nD) (b : Fin 2) (l : Fin 768) (u : Fin 1) :
    (V m c main_v2 : S2x768x1.Idx → BitVec 32) (ix3 b l u) = ((m ((c.tc : Thread nD τ).loc main_arg1)) : S2x768.Idx → BitVec 32) (ix2 b l) := by
  have e : (V m c main_v2 : S2x768x1.Idx → BitVec 32)
      = broadcastInDim S2x768x1 ![0, 1] bcast_S2x768_S2x768x1_0_1 (m ((c.tc : Thread nD τ).loc main_arg1)) := by
    dsimp only [Gen.V, Gen.hostOps0]; after_results
  rw [e]; exact rowArr_read _ _ b l u

theorem arr_main_v3 (c : Dev nD) (b : Fin 2) (u : Fin 1) (l : Fin 768) :
    (V m c main_v3 : S2x1x768.Idx → BitVec 32) (ix3 b u l) = ((m ((c.tc : Thread nD τ).loc main_arg1)) : S2x768.Idx → BitVec 32) (ix2 b l) := by
  have e : (V m c main_v3 : S2x1x768.Idx → BitVec 32)
      = broadcastInDim S2x1x768 ![0, 2] bcast_S2x768_S2x1x768_0_2 (m ((c.tc : Thread nD τ).loc main_arg1)) := by
    dsimp only [Gen.V, Gen.hostOps0]; after_results
  rw [e]; exact colArr_read _ _ b u l

theorem arr_main_v4 (c : Dev nD) (b : Fin 2) (l : Fin 768) (u : Fin 1) :
    (V m c main_v4 : S2x768x1.Idx → BitVec 32) (ix3 b l u) = ((m ((c.tc : Thread nD τ).loc main_arg2)) : S2x768.Idx → BitVec 32) (ix2 b l) := by
  have e : (V m c main_v4 : S2x768x1.Idx → BitVec 32)
      = broadcastInDim S2x768x1 ![0, 1] bcast_S2x768_S2x768x1_0_1 (m ((c.tc : Thread nD τ).loc main_arg2)) := by
    dsimp only [Gen.V, Gen.hostOps0]; after_results
  rw [e]; exact rowArr_read _ _ b l u

theorem arr_main_v5 (c : Dev nD) (b : Fin 2) (u : Fin 1) (l : Fin 768) :
    (V m c main_v5 : S2x1x768.Idx → BitVec 32) (ix3 b u l) = ((m ((c.tc : Thread nD τ).loc main_arg2)) : S2x768.Idx → BitVec 32) (ix2 b l) := by
  have e : (V m c main_v5 : S2x1x768.Idx → BitVec 32)
      = broadcastInDim S2x1x768 ![0, 2] bcast_S2x768_S2x1x768_0_2 (m ((c.tc : Thread nD τ).loc main_arg2)) := by
    dsimp only [Gen.V, Gen.hostOps0]; after_results
  rw [e]; exact colArr_read _ _ b u l

theorem arr_main_v6 (c : Dev nD) (b : Fin 2) (l : Fin 768) (u : Fin 1) :
    (V m c main_v6 : S2x768x1.Idx → BitVec 32) (ix3 b l u) = ((m ((c.tc : Thread nD τ).loc main_arg4)) : S2x768.Idx → BitVec 32) (ix2 b l) := by
  have e : (V m c main_v6 : S2x768x1.Idx → BitVec 32)
      = broadcastInDim S2x768x1 ![0, 1] bcast_S2x768_S2x768x1_0_1 (m ((c.tc : Thread nD τ).loc main_arg4)) := by
    dsimp only [Gen.V, Gen.hostOps0]; after_results
  rw [e]; exact rowArr_read _ _ b l u

theorem arr_main_v7 (c : Dev nD) (b : Fin 2) (u : Fin 1) (l : Fin 768) :
    (V m c main_v7 : S2x1x768.Idx → BitVec 32) (ix3 b u l) = ((m ((c.tc : Thread nD τ).loc main_arg4)) : S2x768.Idx → BitVec 32) (ix2 b l) := by
  have e : (V m c main_v7 : S2x1x768.Idx → BitVec 32)
      = broadcastInDim S2x1x768 ![0, 2] bcast_S2x768_S2x1x768_0_2 (m ((c.tc : Thread nD τ).loc main_arg4)) := by
    dsimp only [Gen.V, Gen.hostOps0]; after_results
  rw [e]; exact colArr_read _ _ b u l

theorem arr_main_v8 (c : Dev nD) (b : Fin 2) (l : Fin 768) (u : Fin 1) :
    (V m c main_v8 : S2x768x1.Idx → BitVec 32) (ix3 b l u) = ((m ((c.tc : Thread nD τ).loc main_arg5)) : S2x768.Idx → BitVec 32) (ix2 b l) := by
  have e : (V m c main_v8 : S2x768x1.Idx → BitVec 32)
      = broadcastInDim S2x768x1 ![0, 1] bcast_S2x768_S2x768x1_0_1 (m ((c.tc : Thread nD τ).loc main_arg5)) := by
    dsimp only [Gen.V, Gen.hostOps0]; after_results
  rw [e]; exact rowArr_read _ _ b l u

theorem arr_main_v9 (c : Dev nD) (b : Fin 2) (u : Fin 1) (l : Fin 768) :
    (V m c main_v9 : S2x1x768.Idx → BitVec 32) (ix3 b u l) = ((m ((c.tc : Thread nD τ).loc main_arg5)) : S2x768.Idx → BitVec 32) (ix2 b l) := by
  have e : (V m c main_v9 : S2x1x768.Idx → BitVec 32)
      = broadcastInDim S2x1x768 ![0, 2] bcast_S2x768_S2x1x768_0_2 (m ((c.tc : Thread nD τ).loc main_arg5)) := by
    dsimp only [Gen.V, Gen.hostOps0]; after_results
  rw [e]; exact colArr_read _ _ b u l

theorem arr_main_v11 (c : Dev nD) (b : Fin 2) (u : Fin 1) (l : Fin 768) :
    (V m c main_v11 : S2x1x768.Idx → BitVec 32) (ix3 b u l) = ((m ((c.tc : Thread nD τ).loc main_arg3)) : S2x768.Idx → BitVec 32) (ix2 b l) := by
  have e : (V m c main_v11 : S2x1x768.Idx → BitVec 32)
      = broadcastInDim S2x1x768 ![0, 2] bcast_S2x768_S2x1x768_0_2 (m ((c.tc : Thread nD τ).loc main_arg3)) := by
    dsimp only [Gen.V, Gen.hostOps0]; after_results
  rw [e]; exact colArr_read _ _ b u l

/-! ## The windows move with the output -/

theorem idx_w0 : ∀ t : Fin cfg0.N, win0_0.index t (0 : Fin 3) = win0_12.index t (0 : Fin 4)
    ∧ win0_0.index t (1 : Fin 3) = win0_12.index t (1 : Fin 4) ∧ win0_0.index t (2 : Fin 3) = 0 :=
  (by decide +kernel : ∀ t : Fin grid0.N, _)
theorem idx_w1 : ∀ t : Fin cfg0.N, win0_1.index t (0 : Fin 3) = win0_12.index t (0 : Fin 4)
    ∧ win0_1.index t (1 : Fin 3) = 0 ∧ win0_1.index t (2 : Fin 3) = win0_12.index t (2 : Fin 4) :=
  (by decide +kernel : ∀ t : Fin grid0.N, _)
theorem idx_w2 : ∀ t : Fin cfg0.N, win0_2.index t (0 : Fin 3) = win0_12.index t (0 : Fin 4)
    ∧ win0_2.index t (1 : Fin 3) = win0_12.index t (1 : Fin 4) ∧ win0_2.index t (2 : Fin 3) = 0 :=
  (by decide +kernel : ∀ t : Fin grid0.N, _)
theorem idx_w3 : ∀ t : Fin cfg0.N, win0_3.index t (0 : Fin 3) = win0_12.index t (0 : Fin 4)
    ∧ win0_3.index t (1 : Fin 3) = 0 ∧ win0_3.index t (2 : Fin 3) = win0_12.index t (2 : Fin 4) :=
  (by decide +kernel : ∀ t : Fin grid0.N, _)
theorem idx_w4 : ∀ t : Fin cfg0.N, win0_4.index t (0 : Fin 3) = win0_12.index t (0 : Fin 4)
    ∧ win0_4.index t (1 : Fin 3) = win0_12.index t (1 : Fin 4) ∧ win0_4.index t (2 : Fin 3) = 0 :=
  (by decide +kernel : ∀ t : Fin grid0.N, _)
theorem idx_w5 : ∀ t : Fin cfg0.N, win0_5.index t (0 : Fin 3) = win0_12.index t (0 : Fin 4)
    ∧ win0_5.index t (1 : Fin 3) = 0 ∧ win0_5.index t (2 : Fin 3) = win0_12.index t (2 : Fin 4) :=
  (by decide +kernel : ∀ t : Fin grid0.N, _)
theorem idx_w6 : ∀ t : Fin cfg0.N, win0_6.index t (0 : Fin 3) = win0_12.index t (0 : Fin 4)
    ∧ win0_6.index t (1 : Fin 3) = win0_12.index t (1 : Fin 4) ∧ win0_6.index t (2 : Fin 3) = 0 :=
  (by decide +kernel : ∀ t : Fin grid0.N, _)
theorem idx_w7 : ∀ t : Fin cfg0.N, win0_7.index t (0 : Fin 3) = win0_12.index t (0 : Fin 4)
    ∧ win0_7.index t (1 : Fin 3) = 0 ∧ win0_7.index t (2 : Fin 3) = win0_12.index t (2 : Fin 4) :=
  (by decide +kernel : ∀ t : Fin grid0.N, _)
theorem idx_w8 : ∀ t : Fin cfg0.N, win0_8.index t (0 : Fin 3) = win0_12.index t (0 : Fin 4)
    ∧ win0_8.index t (1 : Fin 3) = win0_12.index t (1 : Fin 4) ∧ win0_8.index t (2 : Fin 3) = 0 :=
  (by decide +kernel : ∀ t : Fin grid0.N, _)
theorem idx_w9 : ∀ t : Fin cfg0.N, win0_9.index t (0 : Fin 3) = win0_12.index t (0 : Fin 4)
    ∧ win0_9.index t (1 : Fin 3) = 0 ∧ win0_9.index t (2 : Fin 3) = win0_12.index t (2 : Fin 4) :=
  (by decide +kernel : ∀ t : Fin grid0.N, _)
theorem idx_w10 : ∀ t : Fin cfg0.N, win0_10.index t (0 : Fin 3) = win0_12.index t (0 : Fin 4)
    ∧ win0_10.index t (1 : Fin 3) = 0 ∧ win0_10.index t (2 : Fin 3) = win0_12.index t (2 : Fin 4) :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_out : ∀ t : Fin cfg0.N, win0_12.index t (0 : Fin 4) ≤ 1 ∧ win0_12.index t (1 : Fin 4) ≤ 7
    ∧ win0_12.index t (2 : Fin 4) ≤ 5 ∧ win0_12.index t (3 : Fin 4) = 0 :=
  (by decide +kernel : ∀ t : Fin grid0.N, _)
/-- Every block of the result is some point's. -/
theorem idx_onto : ∀ (q0 : Fin 2) (q1 : Fin 8) (q2 : Fin 6), ∃ t : Fin cfg0.N, win0_12.index t = ![q0.val, q1.val, q2.val, 0] :=
  (by decide +kernel : ∀ (q0 : Fin 2) (q1 : Fin 8) (q2 : Fin 6), ∃ t : Fin grid0.N, win0_12.index t = ![q0.val, q1.val, q2.val, 0])

/-! ## The input blocks as words of the arguments -/

theorem blk_w0 (c : Dev nD) (t : Fin cfg0.N) (r : Fin 96) (b : Fin 2) (l : Fin 768)
    (hb : b.val = win0_12.index t (0 : Fin 4)) (hl : l.val = win0_12.index t (1 : Fin 4) * 96 + r.val) :
    (iblk m c 0 t : Vec Ideal S1x96x1 .i32) (ix3 (0 : Fin 1) r (0 : Fin 1))
      = ((m ((c.tc : Thread nD τ).loc main_arg0)) : S2x768.Idx → BitVec 32) (ix2 b l) := by
  obtain ⟨e0, e1, e2⟩ := idx_w0 t
  unfold iblk
  rw [View.read_apply]
  refine Eq.trans ?_ (arr_main_v0 m c b l (0 : Fin 1))
  show V m c main_v0 _ = V m c main_v0 _
  refine congrArg (V m c main_v0) (funext fun a => Fin.ext ?_)
  match a with
  | ⟨0, _⟩ => show win0_0.index t (0 : Fin 3) * 1 + 1 * 0 = b.val; omega
  | ⟨1, _⟩ => show win0_0.index t (1 : Fin 3) * 96 + 1 * r.val = l.val; omega
  | ⟨2, _⟩ => show win0_0.index t (2 : Fin 3) * 1 + 1 * 0 = 0; omega

theorem blk_w1 (c : Dev nD) (t : Fin cfg0.N) (cc : Fin 128) (b : Fin 2) (l : Fin 768)
    (hb : b.val = win0_12.index t (0 : Fin 4)) (hl : l.val = win0_12.index t (2 : Fin 4) * 128 + cc.val) :
    (iblk m c 1 t : Vec Ideal S1x1x128 .i32) (ix3 (0 : Fin 1) (0 : Fin 1) cc)
      = ((m ((c.tc : Thread nD τ).loc main_arg0)) : S2x768.Idx → BitVec 32) (ix2 b l) := by
  obtain ⟨e0, e1, e2⟩ := idx_w1 t
  unfold iblk
  rw [View.read_apply]
  refine Eq.trans ?_ (arr_main_v1 m c b (0 : Fin 1) l)
  show V m c main_v1 _ = V m c main_v1 _
  refine congrArg (V m c main_v1) (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 128 + 1 * cc.val = l.val; omega

theorem blk_w2 (c : Dev nD) (t : Fin cfg0.N) (r : Fin 96) (b : Fin 2) (l : Fin 768)
    (hb : b.val = win0_12.index t (0 : Fin 4)) (hl : l.val = win0_12.index t (1 : Fin 4) * 96 + r.val) :
    (iblk m c 2 t : Vec Ideal S1x96x1 .i32) (ix3 (0 : Fin 1) r (0 : Fin 1))
      = ((m ((c.tc : Thread nD τ).loc main_arg1)) : S2x768.Idx → BitVec 32) (ix2 b l) := by
  obtain ⟨e0, e1, e2⟩ := idx_w2 t
  unfold iblk
  rw [View.read_apply]
  refine Eq.trans ?_ (arr_main_v2 m c b l (0 : Fin 1))
  show V m c main_v2 _ = V m c main_v2 _
  refine congrArg (V m c main_v2) (funext fun a => Fin.ext ?_)
  match a with
  | ⟨0, _⟩ => show win0_2.index t (0 : Fin 3) * 1 + 1 * 0 = b.val; omega
  | ⟨1, _⟩ => show win0_2.index t (1 : Fin 3) * 96 + 1 * r.val = l.val; omega
  | ⟨2, _⟩ => show win0_2.index t (2 : Fin 3) * 1 + 1 * 0 = 0; omega

theorem blk_w3 (c : Dev nD) (t : Fin cfg0.N) (cc : Fin 128) (b : Fin 2) (l : Fin 768)
    (hb : b.val = win0_12.index t (0 : Fin 4)) (hl : l.val = win0_12.index t (2 : Fin 4) * 128 + cc.val) :
    (iblk m c 3 t : Vec Ideal S1x1x128 .i32) (ix3 (0 : Fin 1) (0 : Fin 1) cc)
      = ((m ((c.tc : Thread nD τ).loc main_arg1)) : S2x768.Idx → BitVec 32) (ix2 b l) := by
  obtain ⟨e0, e1, e2⟩ := idx_w3 t
  unfold iblk
  rw [View.read_apply]
  refine Eq.trans ?_ (arr_main_v3 m c b (0 : Fin 1) l)
  show V m c main_v3 _ = V m c main_v3 _
  refine congrArg (V m c main_v3) (funext fun a => Fin.ext ?_)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 128 + 1 * cc.val = l.val; omega

theorem blk_w4 (c : Dev nD) (t : Fin cfg0.N) (r : Fin 96) (b : Fin 2) (l : Fin 768)
    (hb : b.val = win0_12.index t (0 : Fin 4)) (hl : l.val = win0_12.index t (1 : Fin 4) * 96 + r.val) :
    (iblk m c 4 t : Vec Ideal S1x96x1 .i32) (ix3 (0 : Fin 1) r (0 : Fin 1))
      = ((m ((c.tc : Thread nD τ).loc main_arg2)) : S2x768.Idx → BitVec 32) (ix2 b l) := by
  obtain ⟨e0, e1, e2⟩ := idx_w4 t
  unfold iblk
  rw [View.read_apply]
  refine Eq.trans ?_ (arr_main_v4 m c b l (0 : Fin 1))
  show V m c main_v4 _ = V m c main_v4 _
  refine congrArg (V m c main_v4) (funext fun a => Fin.ext ?_)
  match a with
  | ⟨0, _⟩ => show win0_4.index t (0 : Fin 3) * 1 + 1 * 0 = b.val; omega
  | ⟨1, _⟩ => show win0_4.index t (1 : Fin 3) * 96 + 1 * r.val = l.val; omega
  | ⟨2, _⟩ => show win0_4.index t (2 : Fin 3) * 1 + 1 * 0 = 0; omega

theorem blk_w5 (c : Dev nD) (t : Fin cfg0.N) (cc : Fin 128) (b : Fin 2) (l : Fin 768)
    (hb : b.val = win0_12.index t (0 : Fin 4)) (hl : l.val = win0_12.index t (2 : Fin 4) * 128 + cc.val) :
    (iblk m c 5 t : Vec Ideal S1x1x128 .i32) (ix3 (0 : Fin 1) (0 : Fin 1) cc)
      = ((m ((c.tc : Thread nD τ).loc main_arg2)) : S2x768.Idx → BitVec 32) (ix2 b l) := by
  obtain ⟨e0, e1, e2⟩ := idx_w5 t
  unfold iblk
  rw [View.read_apply]
  refine Eq.trans ?_ (arr_main_v5 m c b (0 : Fin 1) l)
  show V m c main_v5 _ = V m c main_v5 _
  refine congrArg (V m c main_v5) (funext fun a => Fin.ext ?_)
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 128 + 1 * cc.val = l.val; omega

theorem blk_w6 (c : Dev nD) (t : Fin cfg0.N) (r : Fin 96) (b : Fin 2) (l : Fin 768)
    (hb : b.val = win0_12.index t (0 : Fin 4)) (hl : l.val = win0_12.index t (1 : Fin 4) * 96 + r.val) :
    (iblk m c 6 t : Vec Ideal S1x96x1 .i32) (ix3 (0 : Fin 1) r (0 : Fin 1))
      = ((m ((c.tc : Thread nD τ).loc main_arg4)) : S2x768.Idx → BitVec 32) (ix2 b l) := by
  obtain ⟨e0, e1, e2⟩ := idx_w6 t
  unfold iblk
  rw [View.read_apply]
  refine Eq.trans ?_ (arr_main_v6 m c b l (0 : Fin 1))
  show V m c main_v6 _ = V m c main_v6 _
  refine congrArg (V m c main_v6) (funext fun a => Fin.ext ?_)
  match a with
  | ⟨0, _⟩ => show win0_6.index t (0 : Fin 3) * 1 + 1 * 0 = b.val; omega
  | ⟨1, _⟩ => show win0_6.index t (1 : Fin 3) * 96 + 1 * r.val = l.val; omega
  | ⟨2, _⟩ => show win0_6.index t (2 : Fin 3) * 1 + 1 * 0 = 0; omega

theorem blk_w7 (c : Dev nD) (t : Fin cfg0.N) (cc : Fin 128) (b : Fin 2) (l : Fin 768)
    (hb : b.val = win0_12.index t (0 : Fin 4)) (hl : l.val = win0_12.index t (2 : Fin 4) * 128 + cc.val) :
    (iblk m c 7 t : Vec Ideal S1x1x128 .i32) (ix3 (0 : Fin 1) (0 : Fin 1) cc)
      = ((m ((c.tc : Thread nD τ).loc main_arg4)) : S2x768.Idx → BitVec 32) (ix2 b l) := by
  obtain ⟨e0, e1, e2⟩ := idx_w7 t
  unfold iblk
  rw [View.read_apply]
  refine Eq.trans ?_ (arr_main_v7 m c b (0 : Fin 1) l)
  show V m c main_v7 _ = V m c main_v7 _
  refine congrArg (V m c main_v7) (funext fun a => Fin.ext ?_)
  match a with
  | ⟨0, _⟩ => show win0_7.index t (0 : Fin 3) * 1 + 1 * 0 = b.val; omega
  | ⟨1, _⟩ => show win0_7.index t (1 : Fin 3) * 1 + 1 * 0 = 0; omega
  | ⟨2, _⟩ => show win0_7.index t (2 : Fin 3) * 128 + 1 * cc.val = l.val; omega

theorem blk_w8 (c : Dev nD) (t : Fin cfg0.N) (r : Fin 96) (b : Fin 2) (l : Fin 768)
    (hb : b.val = win0_12.index t (0 : Fin 4)) (hl : l.val = win0_12.index t (1 : Fin 4) * 96 + r.val) :
    (iblk m c 8 t : Vec Ideal S1x96x1 .i32) (ix3 (0 : Fin 1) r (0 : Fin 1))
      = ((m ((c.tc : Thread nD τ).loc main_arg5)) : S2x768.Idx → BitVec 32) (ix2 b l) := by
  obtain ⟨e0, e1, e2⟩ := idx_w8 t
  unfold iblk
  rw [View.read_apply]
  refine Eq.trans ?_ (arr_main_v8 m c b l (0 : Fin 1))
  show V m c main_v8 _ = V m c main_v8 _
  refine congrArg (V m c main_v8) (funext fun a => Fin.ext ?_)
  match a with
  | ⟨0, _⟩ => show win0_8.index t (0 : Fin 3) * 1 + 1 * 0 = b.val; omega
  | ⟨1, _⟩ => show win0_8.index t (1 : Fin 3) * 96 + 1 * r.val = l.val; omega
  | ⟨2, _⟩ => show win0_8.index t (2 : Fin 3) * 1 + 1 * 0 = 0; omega

theorem blk_w9 (c : Dev nD) (t : Fin cfg0.N) (cc : Fin 128) (b : Fin 2) (l : Fin 768)
    (hb : b.val = win0_12.index t (0 : Fin 4)) (hl : l.val = win0_12.index t (2 : Fin 4) * 128 + cc.val) :
    (iblk m c 9 t : Vec Ideal S1x1x128 .i32) (ix3 (0 : Fin 1) (0 : Fin 1) cc)
      = ((m ((c.tc : Thread nD τ).loc main_arg5)) : S2x768.Idx → BitVec 32) (ix2 b l) := by
  obtain ⟨e0, e1, e2⟩ := idx_w9 t
  unfold iblk
  rw [View.read_apply]
  refine Eq.trans ?_ (arr_main_v9 m c b (0 : Fin 1) l)
  show V m c main_v9 _ = V m c main_v9 _
  refine congrArg (V m c main_v9) (funext fun a => Fin.ext ?_)
  match a with
  | ⟨0, _⟩ => show win0_9.index t (0 : Fin 3) * 1 + 1 * 0 = b.val; omega
  | ⟨1, _⟩ => show win0_9.index t (1 : Fin 3) * 1 + 1 * 0 = 0; omega
  | ⟨2, _⟩ => show win0_9.index t (2 : Fin 3) * 128 + 1 * cc.val = l.val; omega

theorem blk_w10 (c : Dev nD) (t : Fin cfg0.N) (cc : Fin 128) (b : Fin 2) (l : Fin 768)
    (hb : b.val = win0_12.index t (0 : Fin 4)) (hl : l.val = win0_12.index t (2 : Fin 4) * 128 + cc.val) :
    (iblk m c 10 t : Vec Ideal S1x1x128 .i32) (ix3 (0 : Fin 1) (0 : Fin 1) cc)
      = ((m ((c.tc : Thread nD τ).loc main_arg3)) : S2x768.Idx → BitVec 32) (ix2 b l) := by
  obtain ⟨e0, e1, e2⟩ := idx_w10 t
  unfold iblk
  rw [View.read_apply]
  refine Eq.trans ?_ (arr_main_v11 m c b (0 : Fin 1) l)
  show V m c main_v11 _ = V m c main_v11 _
  refine congrArg (V m c main_v11) (funext fun a => Fin.ext ?_)
  match a with
  | ⟨0, _⟩ => show win0_10.index t (0 : Fin 3) * 1 + 1 * 0 = b.val; omega
  | ⟨1, _⟩ => show win0_10.index t (1 : Fin 3) * 1 + 1 * 0 = 0; omega
  | ⟨2, _⟩ => show win0_10.index t (2 : Fin 3) * 128 + 1 * cc.val = l.val; omega

/-- The weights' block is the whole table. -/
theorem blk_w11 (c : Dev nD) (t : Fin cfg0.N) (k : Fin 139) (z : Fin 128) :
    (iblk m c 11 t : Vec Ideal S139x128 .f32) (ix2 k z) = ((m ((c.tc : Thread nD τ).loc main_arg6)) : S139x128.Idx → EReal) (ix2 k z) := by
  obtain ⟨e0, e1⟩ := idx_w11 t
  unfold iblk
  rw [View.read_apply]
  refine Eq.trans ?_ (congrFun (V_main_arg6 m c) (ix2 k z))
  show V m c main_arg6 _ = V m c main_arg6 _
  refine congrArg (V m c main_arg6) (funext fun a => Fin.ext ?_)
  match a with
  | ⟨0, _⟩ => show win0_11.index t (0 : Fin 2) * 139 + 1 * k.val = k.val; omega
  | ⟨1, _⟩ => show win0_11.index t (1 : Fin 2) * 128 + 1 * z.val = z.val; omega

/-! ## The result -/

/-- The result array as one function of the seven argument arrays. -/
abbrev result (c : Dev nD) : S2x768x768x128.Idx → EReal :=
  encode (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- What point t writes back is block t of the result. -/
theorem flushed_eq (c : Dev nD) (t : Fin cfg0.N) :
    (dats m 0 c).flushed 12 t = ((cfg0.win 12).blk t).view.read (Elt Ideal) (result m c) := by
  rw [Cert.KernelIdeal.ValueP.flushed12]
  show (cfg0.win 12).cut (grid0.coords t) _ = _
  unfold out0_12
  rw [View.canon_unit_zero hz4]
  simp only [View.ld_unit_zero (S := S1x96x1) hz3, View.ld_unit_zero (S := S1x1x128) hz3, View.ld_unit_zero (S := S139x128) hz2]
  obtain ⟨o0, o1, o2, o3⟩ := idx_out t
  funext j
  obtain ⟨u, r, cc, z, rfl⟩ : ∃ (u : Fin 1) (r : Fin 96) (cc : Fin 128) (z : Fin 128), j = ix4 u r cc z :=
    ⟨j 0, j 1, j 2, j 3, eq_ix4 j⟩
  obtain rfl : u = 0 := Subsingleton.elim u 0
  refine (Cert.KernelIdeal.Entry.stored_entry (iblk m c 0 t) (iblk m c 2 t) (iblk m c 6 t) (iblk m c 8 t) (iblk m c 4 t)
    (iblk m c 1 t) (iblk m c 3 t) (iblk m c 10 t) (iblk m c 7 t) (iblk m c 9 t) (iblk m c 5 t) (iblk m c 11 t) r cc z).trans ?_
  show _ = result m c (((cfg0.win 12).blk t).view.emb (ix4 (0 : Fin 1) r cc z))
  have hb : win0_12.index t (0 : Fin 4) * 1 + 1 * 0 < 2 := by omega
  have hl : win0_12.index t (1 : Fin 4) * 96 + 1 * r.val < 768 := by have := r.isLt; omega
  have hm : win0_12.index t (2 : Fin 4) * 128 + 1 * cc.val < 768 := by have := cc.isLt; omega
  have hi : ((cfg0.win 12).blk t).view.emb (ix4 (0 : Fin 1) r cc z)
      = ix4 (⟨_, hb⟩ : Fin 2) (⟨_, hl⟩ : Fin 768) (⟨_, hm⟩ : Fin 768) z := by
    funext a; apply Fin.ext
    match a with
    | ⟨0, _⟩ => rfl
    | ⟨1, _⟩ => rfl
    | ⟨2, _⟩ => rfl
    | ⟨3, _⟩ => show win0_12.index t (3 : Fin 4) * 128 + 1 * z.val = z.val; omega
  rw [hi]
  show _ = pairOut _ _ _ _ _ _ _ _ _ _ _ _
  rw [blk_w0 m c t r ⟨_, hb⟩ ⟨_, hl⟩ (by show _ * 1 + 1 * 0 = _; omega) (by show _ * 96 + 1 * r.val = _; omega),
    blk_w2 m c t r ⟨_, hb⟩ ⟨_, hl⟩ (by show _ * 1 + 1 * 0 = _; omega) (by show _ * 96 + 1 * r.val = _; omega),
    blk_w4 m c t r ⟨_, hb⟩ ⟨_, hl⟩ (by show _ * 1 + 1 * 0 = _; omega) (by show _ * 96 + 1 * r.val = _; omega),
    blk_w6 m c t r ⟨_, hb⟩ ⟨_, hl⟩ (by show _ * 1 + 1 * 0 = _; omega) (by show _ * 96 + 1 * r.val = _; omega),
    blk_w8 m c t r ⟨_, hb⟩ ⟨_, hl⟩ (by show _ * 1 + 1 * 0 = _; omega) (by show _ * 96 + 1 * r.val = _; omega),
    blk_w1 m c t cc ⟨_, hb⟩ ⟨_, hm⟩ (by show _ * 1 + 1 * 0 = _; omega) (by show _ * 128 + 1 * cc.val = _; omega),
    blk_w3 m c t cc ⟨_, hb⟩ ⟨_, hm⟩ (by show _ * 1 + 1 * 0 = _; omega) (by show _ * 128 + 1 * cc.val = _; omega),
    blk_w5 m c t cc ⟨_, hb⟩ ⟨_, hm⟩ (by show _ * 1 + 1 * 0 = _; omega) (by show _ * 128 + 1 * cc.val = _; omega),
    blk_w7 m c t cc ⟨_, hb⟩ ⟨_, hm⟩ (by show _ * 1 + 1 * 0 = _; omega) (by show _ * 128 + 1 * cc.val = _; omega),
    blk_w9 m c t cc ⟨_, hb⟩ ⟨_, hm⟩ (by show _ * 1 + 1 * 0 = _; omega) (by show _ * 128 + 1 * cc.val = _; omega),
    blk_w10 m c t cc ⟨_, hb⟩ ⟨_, hm⟩ (by show _ * 1 + 1 * 0 = _; omega) (by show _ * 128 + 1 * cc.val = _; omega)]
  refine congrArg (pairOut _ _ _ _ _ _ _ _ _ _ _) (funext fun k => ?_)
  exact blk_w11 m c t k z

/-- An index of the array is in point t's block iff each coordinate is in the block's range on its axis. -/
theorem mem_blk (t : Fin cfg0.N) (i : S2x768x768x128.Idx) :
    i ∈ ((cfg0.win 12).blk t).view.set ↔ ∀ a : Fin 4, win0_12.index t a * S1x96x128x128.size a ≤ (i a).val
      ∧ (i a).val < win0_12.index t a * S1x96x128x128.size a + S1x96x128x128.size a := by
  show i ∈ ((View.whole main_v12).slice (win0_12.rect t)).set ↔ _
  rw [View.set_slice_whole, Rect.mem_set_unit]
  exact Iff.rfl

/-- The 96 blocks tile the result: every index is in some point's block. -/
theorem covered (i : S2x768x768x128.Idx) :
    ∃ t : Fin cfg0.N, (cfg0.win 12).flush t = true ∧ i ∈ ((cfg0.win 12).blk t).view.set := by
  have hi0 : (i 0).val < 2 := (i 0).isLt
  have hi1 : (i 1).val < 768 := (i 1).isLt
  have hi2 : (i 2).val < 768 := (i 2).isLt
  have hi3 : (i 3).val < 128 := (i 3).isLt
  obtain ⟨t, ht⟩ := idx_onto ⟨(i 0).val, by omega⟩ ⟨(i 1).val / 96, by omega⟩ ⟨(i 2).val / 128, by omega⟩
  have q0 : win0_12.index t (0 : Fin 4) = (i 0).val := congrFun ht 0
  have q1 : win0_12.index t (1 : Fin 4) = (i 1).val / 96 := congrFun ht 1
  have q2 : win0_12.index t (2 : Fin 4) = (i 2).val / 128 := congrFun ht 2
  have q3 : win0_12.index t (3 : Fin 4) = 0 := congrFun ht 3
  refine ⟨t, flush0_12 t, ?_⟩
  rw [mem_blk]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 96 ≤ (i 1).val ∧ (i 1).val < win0_12.index t (1 : Fin 4) * 96 + 96; omega
  | ⟨2, _⟩ => show win0_12.index t (2 : Fin 4) * 128 ≤ (i 2).val ∧ (i 2).val < win0_12.index t (2 : Fin 4) * 128 + 128; omega
  | ⟨3, _⟩ => show win0_12.index t (3 : Fin 4) * 128 ≤ (i 3).val ∧ (i 3).val < win0_12.index t (3 : Fin 4) * 128 + 128; omega

/-- The result array after the run. -/
theorem final (c : Dev nD) : (dats m 0 c).arrAt 12 cfg0.N = result m c :=
  (dats m 0 c).arrAt_eq_of_cover 12 (result m c) (fun t _ => flushed_eq m c t) covered

/-- The kernel program's run: the result array at `result`, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.ValueP.run_blocks m ρ)

end Cert.KernelIdeal.Blocks

end
-- ==== Proof.RefEntry.lean ====
/-
  One entry of the reference's result, as the pair features of its two tokens.

  The reference broadcasts every word array [2, 768] once along the columns (token l of batch entry b at every m) and
  once along the rows (token m at every l), so each [2, 768, 768] stage read at (b, l, m) is the same scalar operation
  of the words of tokens l and m of entry b: the three equality bits (`chain_at`, `resid_at`, `ent_at`), the column's
  period (`period_at`), the reduced residue offset (`relPos_at`: the host's quotient and rounding are the kernel's on the
  extended reals) and the three bins (`dRes_ref`, `dTok_ref`, `dChain_ref`). A one-hot stage compares the bin, carried to
  a new last axis, with that axis's position (`hotRes_at`, `hotTok_at`, `hotChain_at`); the entity bit becomes one real
  (`entBit_at`). The four pieces joined along the last axis give, at position k, the piece whose span holds k read at
  k less the extents before it: the range spelling of feature k (`features_at`). The contraction with the weights over
  that axis is the sum over k of feature k times weight (k, z): `Cert.PairFeat.pairOut` (`ref_entry`).
-/
import proofs.«103539_j69999376990394_2_alg».proof.Proof.RefReadPatched
import proofs.«103539_j69999376990394_2_alg».proof.Proof.PairFeatures
import Idealize.ShloMosaic.Lib.Pipeline.Value
import Idealize.ShloMosaic.Lib.ValueIdx

noncomputable section

open scoped BigOperators

namespace Cert.ReferenceIdeal.Entry

open Cert.ReferenceIdeal Cert.ReferenceIdeal.Gen Cert.ReferenceIdeal.ReadP Idealize.ShloMosaic Idealize.ShloMosaic.ValueIdx Cert.PairFeat

variable [Facts]

/-! ## A token's word along the rows and along the columns -/

theorem row_v2 (x : (⟨S2x768, .i32⟩ : BufTy).Contents (Elt Ideal)) (b : Fin 2) (l m : Fin 768) :
    val_main_v2 (F := Ideal) x (ix3 b l m) = x (ix2 b l) := by
  rw [val_main_v2_apply, val_main_v0_apply]
  exact congrArg x (funext fun a => by match a with | ⟨0, _⟩ => rfl | ⟨1, _⟩ => rfl)
theorem row_v7 (x : (⟨S2x768, .i32⟩ : BufTy).Contents (Elt Ideal)) (b : Fin 2) (l m : Fin 768) :
    val_main_v7 (F := Ideal) x (ix3 b l m) = x (ix2 b l) := by
  rw [val_main_v7_apply, val_main_v5_apply]
  exact congrArg x (funext fun a => by match a with | ⟨0, _⟩ => rfl | ⟨1, _⟩ => rfl)
theorem row_v12 (x : (⟨S2x768, .i32⟩ : BufTy).Contents (Elt Ideal)) (b : Fin 2) (l m : Fin 768) :
    val_main_v12 (F := Ideal) x (ix3 b l m) = x (ix2 b l) := by
  rw [val_main_v12_apply, val_main_v10_apply]
  exact congrArg x (funext fun a => by match a with | ⟨0, _⟩ => rfl | ⟨1, _⟩ => rfl)
theorem row_v17 (x : (⟨S2x768, .i32⟩ : BufTy).Contents (Elt Ideal)) (b : Fin 2) (l m : Fin 768) :
    val_main_v17 (F := Ideal) x (ix3 b l m) = x (ix2 b l) := by
  rw [val_main_v17_apply, val_main_v15_apply]
  exact congrArg x (funext fun a => by match a with | ⟨0, _⟩ => rfl | ⟨1, _⟩ => rfl)
theorem row_v40 (x : (⟨S2x768, .i32⟩ : BufTy).Contents (Elt Ideal)) (b : Fin 2) (l m : Fin 768) :
    val_main_v40 (F := Ideal) x (ix3 b l m) = x (ix2 b l) := by
  rw [val_main_v40_apply, val_main_v38_apply]
  exact congrArg x (funext fun a => by match a with | ⟨0, _⟩ => rfl | ⟨1, _⟩ => rfl)
theorem row_v51 (x : (⟨S2x768, .i32⟩ : BufTy).Contents (Elt Ideal)) (b : Fin 2) (l m : Fin 768) :
    val_main_v51 (F := Ideal) x (ix3 b l m) = x (ix2 b l) := by
  rw [val_main_v51_apply, val_main_v49_apply]
  exact congrArg x (funext fun a => by match a with | ⟨0, _⟩ => rfl | ⟨1, _⟩ => rfl)
theorem col_v3 (x : (⟨S2x768, .i32⟩ : BufTy).Contents (Elt Ideal)) (b : Fin 2) (l m : Fin 768) :
    val_main_v3 (F := Ideal) x (ix3 b l m) = x (ix2 b m) := by
  rw [val_main_v3_apply, val_main_v1_apply]
  exact congrArg x (funext fun a => by match a with | ⟨0, _⟩ => rfl | ⟨1, _⟩ => rfl)
theorem col_v8 (x : (⟨S2x768, .i32⟩ : BufTy).Contents (Elt Ideal)) (b : Fin 2) (l m : Fin 768) :
    val_main_v8 (F := Ideal) x (ix3 b l m) = x (ix2 b m) := by
  rw [val_main_v8_apply, val_main_v6_apply]
  exact congrArg x (funext fun a => by match a with | ⟨0, _⟩ => rfl | ⟨1, _⟩ => rfl)
theorem col_v13 (x : (⟨S2x768, .i32⟩ : BufTy).Contents (Elt Ideal)) (b : Fin 2) (l m : Fin 768) :
    val_main_v13 (F := Ideal) x (ix3 b l m) = x (ix2 b m) := by
  rw [val_main_v13_apply, val_main_v11_apply]
  exact congrArg x (funext fun a => by match a with | ⟨0, _⟩ => rfl | ⟨1, _⟩ => rfl)
theorem col_v18 (x : (⟨S2x768, .i32⟩ : BufTy).Contents (Elt Ideal)) (b : Fin 2) (l m : Fin 768) :
    val_main_v18 (F := Ideal) x (ix3 b l m) = x (ix2 b m) := by
  rw [val_main_v18_apply, val_main_v16_apply]
  exact congrArg x (funext fun a => by match a with | ⟨0, _⟩ => rfl | ⟨1, _⟩ => rfl)
theorem col_v41 (x : (⟨S2x768, .i32⟩ : BufTy).Contents (Elt Ideal)) (b : Fin 2) (l m : Fin 768) :
    val_main_v41 (F := Ideal) x (ix3 b l m) = x (ix2 b m) := by
  rw [val_main_v41_apply, val_main_v39_apply]
  exact congrArg x (funext fun a => by match a with | ⟨0, _⟩ => rfl | ⟨1, _⟩ => rfl)
theorem col_v52 (x : (⟨S2x768, .i32⟩ : BufTy).Contents (Elt Ideal)) (b : Fin 2) (l m : Fin 768) :
    val_main_v52 (F := Ideal) x (ix3 b l m) = x (ix2 b m) := by
  rw [val_main_v52_apply, val_main_v50_apply]
  exact congrArg x (funext fun a => by match a with | ⟨0, _⟩ => rfl | ⟨1, _⟩ => rfl)

/-! ## The equality bits, the period and the residue offset -/

theorem chain_at (x0 : (⟨S2x768, .i32⟩ : BufTy).Contents (Elt Ideal)) (b : Fin 2) (l m : Fin 768) :
    val_main_v4 (F := Ideal) x0 (ix3 b l m) = same (x0 (ix2 b l)) (x0 (ix2 b m)) := by
  rw [val_main_v4_apply, row_v2, col_v3]; rfl

theorem resid_at (x1 : (⟨S2x768, .i32⟩ : BufTy).Contents (Elt Ideal)) (b : Fin 2) (l m : Fin 768) :
    val_main_v9 (F := Ideal) x1 (ix3 b l m) = same (x1 (ix2 b l)) (x1 (ix2 b m)) := by
  rw [val_main_v9_apply, row_v7, col_v8]; rfl

theorem ent_at (x2 : (⟨S2x768, .i32⟩ : BufTy).Contents (Elt Ideal)) (b : Fin 2) (l m : Fin 768) :
    val_main_v14 (F := Ideal) x2 (ix3 b l m) = same (x2 (ix2 b l)) (x2 (ix2 b m)) := by
  rw [val_main_v14_apply, row_v12, col_v13]; rfl

/-- The period of a token: its cyclic period where positive, ten thousand otherwise. -/
theorem period_at (x3 : (⟨S2x768, .i32⟩ : BufTy).Contents (Elt Ideal)) (j : S2x768.Idx) : val_main_v22 (F := Ideal) x3 j = period (x3 j) := by
  rw [val_main_v22_apply, val_main_v21_apply, val_main_v20_apply, val_main_c_apply, val_main_call0_v1_apply,
    val_main_call0_v0_apply, val_main_c_0_apply]
  rfl

/-- The period as a row [2, 1, 768]: at (b, 0, m) the period of token m. -/
theorem periodRow_at (x3 : (⟨S2x768, .i32⟩ : BufTy).Contents (Elt Ideal)) (b : Fin 2) (u : Fin 1) (m : Fin 768) :
    val_main_v23 (F := Ideal) x3 (ix3 b u m) = period (x3 (ix2 b m)) := by
  rw [val_main_v23_apply, period_at]
  exact congrArg (fun j => period (x3 j)) (funext fun a => by match a with | ⟨0, _⟩ => rfl | ⟨1, _⟩ => rfl)

/-- The index of the period row under a broadcast along the rows. -/
theorem periodIdx26 (b : Fin 2) (l m : Fin 768) : idx_main_v26 (ix3 b l m) = ix3 b (0 : Fin 1) m :=
  funext fun a => by match a with | ⟨0, _⟩ => rfl | ⟨1, _⟩ => rfl | ⟨2, _⟩ => rfl
theorem periodIdx30 (b : Fin 2) (l m : Fin 768) : idx_main_v30 (ix3 b l m) = ix3 b (0 : Fin 1) m :=
  funext fun a => by match a with | ⟨0, _⟩ => rfl | ⟨1, _⟩ => rfl | ⟨2, _⟩ => rfl

/-- The residue offset of tokens l and m. -/
theorem offset_at (x1 : (⟨S2x768, .i32⟩ : BufTy).Contents (Elt Ideal)) (b : Fin 2) (l m : Fin 768) :
    val_main_v19 (F := Ideal) x1 (ix3 b l m) = IntOp.subi (x1 (ix2 b l)) (x1 (ix2 b m)) := by
  rw [val_main_v19_apply, row_v17, col_v18]

/-- The residue offset reduced by the column's period. -/
theorem relPos_at (x1 x3 : (⟨S2x768, .i32⟩ : BufTy).Contents (Elt Ideal)) (b : Fin 2) (l m : Fin 768) :
    val_main_v32 (F := Ideal) x1 x3 (ix3 b l m) = relPos (x1 (ix2 b l)) (x1 (ix2 b m)) (x3 (ix2 b m)) := by
  rw [val_main_v32_apply, val_main_v31_apply, val_main_v30_apply, periodIdx30, periodRow_at, val_main_v29_apply,
    val_main_v28_apply, val_main_v27_apply, val_main_v24_apply, val_main_v26_apply, periodIdx26, val_main_v25_apply,
    periodRow_at, offset_at]
  rfl

/-! ## The three bins -/

theorem dRes_ref (x0 x1 x3 : (⟨S2x768, .i32⟩ : BufTy).Contents (Elt Ideal)) (b : Fin 2) (l m : Fin 768) :
    val_main_v36 (F := Ideal) x0 x1 x3 (ix3 b l m)
      = dRes (x0 (ix2 b l)) (x0 (ix2 b m)) (x1 (ix2 b l)) (x1 (ix2 b m)) (x3 (ix2 b m)) := by
  rw [val_main_v36_apply, chain_at, val_main_v35_apply, val_main_call2_v4_apply, val_main_call2_v3_apply, val_main_c_3_apply,
    val_main_call2_v2_apply, val_main_call2_v1_apply, val_main_call2_v0_apply, val_main_c_2_apply, val_main_v34_apply,
    relPos_at, val_main_v33_apply, val_main_c_1_apply, val_main_call3_v1_apply, val_main_call3_v0_apply, val_main_c_4_apply]
  rfl

theorem dTok_ref (x0 x1 x4 : (⟨S2x768, .i32⟩ : BufTy).Contents (Elt Ideal)) (b : Fin 2) (l m : Fin 768) :
    val_main_v47 (F := Ideal) x0 x1 x4 (ix3 b l m)
      = dTok (x0 (ix2 b l)) (x0 (ix2 b m)) (x1 (ix2 b l)) (x1 (ix2 b m)) (x4 (ix2 b l)) (x4 (ix2 b m)) := by
  rw [val_main_v47_apply, val_main_v46_apply, chain_at, resid_at, val_main_v45_apply, val_main_call5_v4_apply,
    val_main_call5_v3_apply, val_main_c_7_apply, val_main_call5_v2_apply, val_main_call5_v1_apply, val_main_call5_v0_apply,
    val_main_c_6_apply, val_main_v44_apply, val_main_v42_apply, row_v40, col_v41, val_main_v43_apply, val_main_c_5_apply,
    val_main_call6_v1_apply, val_main_call6_v0_apply, val_main_c_8_apply]
  rfl

theorem dChain_ref (x0 x5 : (⟨S2x768, .i32⟩ : BufTy).Contents (Elt Ideal)) (b : Fin 2) (l m : Fin 768) :
    val_main_v57 (F := Ideal) x0 x5 (ix3 b l m)
      = dChain (x0 (ix2 b l)) (x0 (ix2 b m)) (x5 (ix2 b l)) (x5 (ix2 b m)) := by
  rw [val_main_v57_apply, chain_at, val_main_call9_v1_apply, val_main_call9_v0_apply, val_main_c_12_apply, val_main_v56_apply,
    val_main_call8_v4_apply, val_main_call8_v3_apply, val_main_c_11_apply, val_main_call8_v2_apply, val_main_call8_v1_apply,
    val_main_call8_v0_apply, val_main_c_10_apply, val_main_v55_apply, val_main_v53_apply, row_v51, col_v52, val_main_v54_apply,
    val_main_c_9_apply]
  rfl

/-! ## The one-hots and the entity bit -/

theorem hotRes_at (x0 x1 x3 : (⟨S2x768, .i32⟩ : BufTy).Contents (Elt Ideal)) (b : Fin 2) (l m : Fin 768) (k : Fin 66) :
    val_main_v37 (F := Ideal) x0 x1 x3 (ix4 b l m k)
      = FloatOps.uitofp (F := Ideal) .f32 (IntOp.cmpi .eq (val_main_v36 (F := Ideal) x0 x1 x3 (ix3 b l m)) (BitVec.ofNat 32 k.val)) := by
  rw [val_main_v37_apply, val_main_call4_v4_apply, val_main_call4_v2_apply, val_main_call4_v0_apply, val_main_call4_v3_apply,
    val_main_call4_v1_apply]
  refine congrArg (fun d => FloatOps.uitofp (F := Ideal) .f32 (IntOp.cmpi .eq (val_main_v36 (F := Ideal) x0 x1 x3 d) (BitVec.ofNat 32 k.val))) ?_
  exact funext fun a => by match a with | ⟨0, _⟩ => rfl | ⟨1, _⟩ => rfl | ⟨2, _⟩ => rfl

theorem hotTok_at (x0 x1 x4 : (⟨S2x768, .i32⟩ : BufTy).Contents (Elt Ideal)) (b : Fin 2) (l m : Fin 768) (k : Fin 66) :
    val_main_v48 (F := Ideal) x0 x1 x4 (ix4 b l m k)
      = FloatOps.uitofp (F := Ideal) .f32 (IntOp.cmpi .eq (val_main_v47 (F := Ideal) x0 x1 x4 (ix3 b l m)) (BitVec.ofNat 32 k.val)) := by
  rw [val_main_v48_apply, val_main_call7_v4_apply, val_main_call7_v2_apply, val_main_call7_v0_apply, val_main_call7_v3_apply,
    val_main_call7_v1_apply]
  refine congrArg (fun d => FloatOps.uitofp (F := Ideal) .f32 (IntOp.cmpi .eq (val_main_v47 (F := Ideal) x0 x1 x4 d) (BitVec.ofNat 32 k.val))) ?_
  exact funext fun a => by match a with | ⟨0, _⟩ => rfl | ⟨1, _⟩ => rfl | ⟨2, _⟩ => rfl

theorem hotChain_at (x0 x5 : (⟨S2x768, .i32⟩ : BufTy).Contents (Elt Ideal)) (b : Fin 2) (l m : Fin 768) (k : Fin 6) :
    val_main_v58 (F := Ideal) x0 x5 (ix4 b l m k)
      = FloatOps.uitofp (F := Ideal) .f32 (IntOp.cmpi .eq (val_main_v57 (F := Ideal) x0 x5 (ix3 b l m)) (BitVec.ofNat 32 k.val)) := by
  rw [val_main_v58_apply, val_main_call10_v4_apply, val_main_call10_v2_apply, val_main_call10_v0_apply, val_main_call10_v3_apply,
    val_main_call10_v1_apply]
  refine congrArg (fun d => FloatOps.uitofp (F := Ideal) .f32 (IntOp.cmpi .eq (val_main_v57 (F := Ideal) x0 x5 d) (BitVec.ofNat 32 k.val))) ?_
  exact funext fun a => by match a with | ⟨0, _⟩ => rfl | ⟨1, _⟩ => rfl | ⟨2, _⟩ => rfl

theorem entBit_at (x2 : (⟨S2x768, .i32⟩ : BufTy).Contents (Elt Ideal)) (b : Fin 2) (l m : Fin 768) (u : Fin 1) :
    val_main_v60 (F := Ideal) x2 (ix4 b l m u) = FloatOps.uitofp (F := Ideal) .f32 (same (x2 (ix2 b l)) (x2 (ix2 b m))) := by
  rw [val_main_v60_apply, val_main_v59_apply, ← ent_at x2 b l m]
  refine congrArg (fun d => FloatOps.uitofp (F := Ideal) .f32 (val_main_v14 (F := Ideal) x2 d)) ?_
  exact funext fun a => by match a with | ⟨0, _⟩ => rfl | ⟨1, _⟩ => rfl | ⟨2, _⟩ => rfl

/-! ## The joined features -/

/-- The four pieces joined along the last axis, read at position k: feature k of tokens l and m in the range spelling. -/
theorem features_at (x0 x1 x2 x3 x4 x5 : (⟨S2x768, .i32⟩ : BufTy).Contents (Elt Ideal)) (b : Fin 2) (l m : Fin 768) (k : Fin 139) :
    val_main_v61 (F := Ideal) x0 x1 x2 x3 x4 x5 (ix4 b l m k)
      = pairFeat (x0 (ix2 b l)) (x0 (ix2 b m)) (x1 (ix2 b l)) (x1 (ix2 b m)) (x2 (ix2 b l)) (x2 (ix2 b m)) (x3 (ix2 b m))
          (x4 (ix2 b l)) (x4 (ix2 b m)) (x5 (ix2 b l)) (x5 (ix2 b m)) k := by
  unfold val_main_v61 pairFeat feat
  by_cases h1 : k.val < 66
  · rw [if_pos h1]
    refine (concatenate_apply_piece 3 _ _ (ix4 b l m k) 0 (by show (0 : Nat) < 4; decide) S2x768x768x66 _ rfl rfl 0 rfl
      (ix4 b l m (⟨k.val, h1⟩ : Fin 66)) (fun a ha => ?_) ?_).trans ?_
    · match a with
      | ⟨0, _⟩ => rfl
      | ⟨1, _⟩ => rfl
      | ⟨2, _⟩ => rfl
      | ⟨3, _⟩ => exact absurd rfl ha
    · show 0 + k.val = k.val
      omega
    · rw [hotRes_at, dRes_ref]
  · rw [if_neg h1]
    by_cases h2 : k.val < 132
    · rw [if_pos h2]
      refine (concatenate_apply_piece 3 _ _ (ix4 b l m k) 1 (by show (1 : Nat) < 4; decide) S2x768x768x66 _ rfl rfl 66 rfl
        (ix4 b l m (⟨k.val - 66, by omega⟩ : Fin 66)) (fun a ha => ?_) ?_).trans ?_
      · match a with
        | ⟨0, _⟩ => rfl
        | ⟨1, _⟩ => rfl
        | ⟨2, _⟩ => rfl
        | ⟨3, _⟩ => exact absurd rfl ha
      · show 66 + (k.val - 66) = k.val
        omega
      · rw [hotTok_at, dTok_ref]
    · rw [if_neg h2]
      by_cases h3 : k.val < 133
      · rw [if_pos h3]
        refine (concatenate_apply_piece 3 _ _ (ix4 b l m k) 2 (by show (2 : Nat) < 4; decide) S2x768x768x1 _ rfl rfl 132 rfl
          (ix4 b l m (0 : Fin 1)) (fun a ha => ?_) ?_).trans ?_
        · match a with
          | ⟨0, _⟩ => rfl
          | ⟨1, _⟩ => rfl
          | ⟨2, _⟩ => rfl
          | ⟨3, _⟩ => exact absurd rfl ha
        · show 132 + 0 = k.val
          omega
        · rw [entBit_at]
      · rw [if_neg h3]
        refine (concatenate_apply_piece 3 _ _ (ix4 b l m k) 3 (by show (3 : Nat) < 4; decide) S2x768x768x6 _ rfl rfl 133 rfl
          (ix4 b l m (⟨k.val - 133, by have := k.isLt; omega⟩ : Fin 6)) (fun a ha => ?_) ?_).trans ?_
        · match a with
          | ⟨0, _⟩ => rfl
          | ⟨1, _⟩ => rfl
          | ⟨2, _⟩ => rfl
          | ⟨3, _⟩ => exact absurd rfl ha
        · show 133 + (k.val - 133) = k.val
          omega
        · rw [hotChain_at, dChain_ref]

/-! ## The result entry -/

/-- Entry (b, l, m, z) of the reference's result: the features of tokens l and m of entry b against weight column z. -/
theorem ref_entry (x0 x1 x2 x3 x4 x5 : (⟨S2x768, .i32⟩ : BufTy).Contents (Elt Ideal)) (x6 : (⟨S139x128, .f32⟩ : BufTy).Contents (Elt Ideal))
    (b : Fin 2) (l m : Fin 768) (z : Fin 128) :
    val_main_v62 (F := Ideal) x0 x1 x2 x3 x4 x5 x6 (ix4 b l m z)
      = pairOut (x0 (ix2 b l)) (x0 (ix2 b m)) (x1 (ix2 b l)) (x1 (ix2 b m)) (x2 (ix2 b l)) (x2 (ix2 b m)) (x3 (ix2 b m))
          (x4 (ix2 b l)) (x4 (ix2 b m)) (x5 (ix2 b l)) (x5 (ix2 b m)) (fun k => (x6 (ix2 k z) : EReal)) := by
  rw [val_main_v62_apply]
  unfold pairOut
  refine Finset.sum_congr rfl fun k _ => ?_
  have el : lidx_main_v62 (ix4 b l m z) k = ix4 b l m k :=
    funext fun a => by match a with | ⟨0, _⟩ => rfl | ⟨1, _⟩ => rfl | ⟨2, _⟩ => rfl | ⟨3, _⟩ => rfl
  have er : ridx_main_v62 (ix4 b l m z) k = ix2 k z :=
    funext fun a => by match a with | ⟨0, _⟩ => rfl | ⟨1, _⟩ => rfl
  rw [el, er, features_at]

/-- The reference's whole result: `encode` of its seven arguments. -/
theorem ref_result (x0 x1 x2 x3 x4 x5 : (⟨S2x768, .i32⟩ : BufTy).Contents (Elt Ideal)) (x6 : (⟨S139x128, .f32⟩ : BufTy).Contents (Elt Ideal)) :
    val_main_v62 (F := Ideal) x0 x1 x2 x3 x4 x5 x6 = encode x0 x1 x2 x3 x4 x5 x6 := by
  funext i
  obtain ⟨b, l, k, z, rfl⟩ : ∃ (b : Fin 2) (l k : Fin 768) (z : Fin 128), i = ix4 b l k z :=
    ⟨i 0, i 1, i 2, i 3, eq_ix4 i⟩
  exact ref_entry x0 x1 x2 x3 x4 x5 x6 b l k z

end Cert.ReferenceIdeal.Entry

end
-- ==== Proof.lean ====
/-
  The relative position encoder as a kernel and as its reference: the two programs compute one function.

  For each batch entry b and each pair of tokens (l, m) both programs form, from the tokens' chain, residue, entity,
  token and symmetry words and token m's cyclic period, three bins and one bit, spread them as 139 zero-or-one features,
  and contract the features with the weight table [139, 128]:
      out (b, l, m, z) = sum over k < 139 of feature k of (l, m) times W (k, z)      (`Cert.PairFeat.encode`).
  The kernel works tile by tile — 96 rows by 128 columns of one batch entry per grid point —, builds all 139 features at
  once by comparing the position k with a target word chosen by k's range, and multiplies the [12288, 139] features of a
  tile with the whole table; the reference builds the four groups of features separately, joins them, and contracts.
  At the ideal instance the float steps on the way — the residue offset's quotient by the period, rounded to the
  nearest integer and read back as a word; the features as reals; the rounding of the product's operands — are the same
  exact operations on both sides, so entry by entry the two sums have the same terms, and no hypothesis on the inputs
  is used: the precondition is never opened.

  `Cert.KernelIdeal.Blocks.run` names the kernel program's result (the generated frame run, its 96 written-back blocks
  read as blocks of `encode`), `Cert.ReferenceIdeal.Entry.ref_result` reads the reference's result term index by index. The
  two frames of the kernel programs are the generated frame certificates; the reference's frame is its run with the
  result dropped; the idealization rewrote nothing, so the fourth claim is `True`.
-/
import proofs.«103539_j69999376990394_2_alg».proof.Defs
import proofs.«103539_j69999376990394_2_alg».proof.Proof.Gen.Kernel
import proofs.«103539_j69999376990394_2_alg».proof.Proof.Gen.Kernel.Skeleton
import proofs.«103539_j69999376990394_2_alg».proof.Proof.Gen.Kernel.Launch
import proofs.«103539_j69999376990394_2_alg».proof.Proof.Gen.Kernel.Points
import proofs.«103539_j69999376990394_2_alg».proof.Proof.Gen.Kernel.Frame
import proofs.«103539_j69999376990394_2_alg».proof.Proof.Gen.KernelIdeal
import proofs.«103539_j69999376990394_2_alg».proof.Proof.Gen.KernelIdeal.Skeleton
import proofs.«103539_j69999376990394_2_alg».proof.Proof.Gen.KernelIdeal.Launch
import proofs.«103539_j69999376990394_2_alg».proof.Proof.Gen.KernelIdeal.Points
import proofs.«103539_j69999376990394_2_alg».proof.Proof.Gen.KernelIdeal.Frame
import proofs.«103539_j69999376990394_2_alg».proof.Proof.Gen.ReferenceIdeal
import proofs.«103539_j69999376990394_2_alg».proof.Proof.Gen.Pre_finite_inputs
import proofs.«103539_j69999376990394_2_alg».proof.Proof.KernelValuePatched
import proofs.«103539_j69999376990394_2_alg».proof.Proof.RefRunPatched
import proofs.«103539_j69999376990394_2_alg».proof.Proof.RefReadPatched
import proofs.«103539_j69999376990394_2_alg».proof.Proof.KernelBlocks
import proofs.«103539_j69999376990394_2_alg».proof.Proof.RefEntry
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both programs, run from memories that agree on the seven arguments, end with the result array at `encode` of
    those arguments: the kernel's by its blocks, the reference's index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq]
  obtain ⟨a0, a1, a2, a3, a4, a5, a6⟩ := hagree c
  rw [a0, a1, a2, a3, a4, a5, a6]
  exact Cert.ReferenceIdeal.Entry.ref_result _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
